-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S100x4096 : Shape := ⟨2, ![100, 4096]⟩
abbrev S100 : Shape := ⟨1, ![100]⟩
abbrev S1000x100 : Shape := ⟨2, ![1000, 100]⟩
abbrev S1000 : Shape := ⟨1, ![1000]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S100x4096 : S_.BroadcastsInDim S100x4096 (![] : Fin 0 → Fin S100x4096.rank)
  reducesTo_S100x4096_S_d0_1 : S100x4096.ReducesTo [0, 1] S_
  bcast_S_S100 : S_.BroadcastsInDim S100 (![] : Fin 0 → Fin S100.rank)
  reducesTo_S100_S_d0 : S100.ReducesTo [0] S_
  bcast_S_S1000x100 : S_.BroadcastsInDim S1000x100 (![] : Fin 0 → Fin S1000x100.rank)
  reducesTo_S1000x100_S_d0_1 : S1000x100.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S100 .f32) (main_arg5 : FVec F S1000x100 .f32) (main_arg6 : FVec F S1000 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S1000x100 .f32 := Host.absf main_arg5
  let main_cst_8 : FVec F S_ .f32 := constant S_ .f32 0x7F800000#32
  let main_v25 : FVec F S1000x100 .f32 := broadcastInDim S1000x100 ![] bcast_S_S1000x100 main_cst_8
  let main_v26 : IVec S1000x100 1 := cmpf .olt main_v24 main_v25
  let main_c_9 : IVec S_ 1 := constantI S_ 1 1#1
  let main_v27 : IVec S_ 1 := (fun x v => Host.reduce IntOp.andi x v reducesTo_S1000x100_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S32768x4096 .f32) (main_arg1 : FVec F S100x4096 .f32) (main_arg2 : FVec F S100 .f32) (main_arg3 : FVec F S100 .f32) (main_arg4 : FVec F S100 .f32) (main_arg5 : FVec F S1000x100 .f32) (main_arg6 : FVec F S1000 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S100x4096 .f32 := Host.absf main_arg1
  let main_cst_0 : FVec F S_ .f32 := constant S_ .f32 0x7F800000#32
  let main_v5 : FVec F S100x4096 .f32 := broadcastInDim S100x4096 ![] bcast_S_S100x4096 main_cst_0
  let main_v6 : IVec S100x4096 1 := cmpf .olt main_v4 main_v5
  let main_c_1 : IVec S_ 1 := constantI S_ 1 1#1
  let main_v7 : IVec S_ 1 := (fun x v => Host.reduce IntOp.andi x v reducesTo_S100x4096_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_v13 main_v16
-- ==== Kernel.lean ====
abbrev S32768x4096 : Shape := ⟨2, ![32768, 4096]⟩
abbrev S100x4096 : Shape := ⟨2, ![100, 4096]⟩
abbrev S100 : Shape := ⟨1, ![100]⟩
abbrev S1000x100 : Shape := ⟨2, ![1000, 100]⟩
abbrev S1000 : Shape := ⟨1, ![1000]⟩
abbrev S_ : Shape := ⟨0, ![]⟩
abbrev S128x4096 : Shape := ⟨2, ![128, 4096]⟩
abbrev S128 : Shape := ⟨1, ![128]⟩
abbrev S1x128 : Shape := ⟨2, ![1, 128]⟩
abbrev S1000x128 : Shape := ⟨2, ![1000, 128]⟩
abbrev S1x1000 : Shape := ⟨2, ![1, 1000]⟩
abbrev S32768x128 : Shape := ⟨2, ![32768, 128]⟩
abbrev S512x4096 : Shape := ⟨2, ![512, 4096]⟩
abbrev S512x128 : Shape := ⟨2, ![512, 128]⟩
abbrev S32768x1000 : Shape := ⟨2, ![32768, 1000]⟩
abbrev S1024x128 : Shape := ⟨2, ![1024, 128]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 50
  | .vmem => 14
  | .smem => 0
  | _ => 0

abbrev bufTy : (tb : Table) → Fin (tcTables nBuf tb) → BufTy
  | .hbm, ⟨0, _⟩ => ⟨S32768x4096, .f32⟩
  | .hbm, ⟨1, _⟩ => ⟨S100x4096, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S1000x100, .f32⟩
  | .hbm, ⟨6, _⟩ => ⟨S1000, .f32⟩
  | .hbm, ⟨7, _⟩ => ⟨S_, .i32⟩
  | .hbm, ⟨8, _⟩ => ⟨S_, .f32⟩
  | .hbm, ⟨9, _⟩ => ⟨S128x4096, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S_, .i32⟩
  | .hbm, ⟨21, _⟩ => ⟨S_, .f32⟩
  | .hbm, ⟨22, _⟩ => ⟨S1000x128, .f32⟩
  | .hbm, ⟨23, _⟩ => ⟨S1x1000, .f32⟩
  | .hbm, ⟨24, _⟩ => ⟨S32768x128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S32768x128, .f32⟩
  | .hbm, ⟨32, _⟩ => ⟨S32768x128, .f32⟩
  | .hbm, ⟨33, _⟩ => ⟨S32768x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S32768x1000, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S1024x128, .f32⟩
  | .local _ .vmem, ⟨7, _⟩ => ⟨S1024x128, .f32⟩
  | .local _ .vmem, ⟨8, _⟩ => ⟨S1000x128, .f32⟩
  | .local _ .vmem, ⟨9, _⟩ => ⟨S1x1000, .f32⟩
  | .local _ .vmem, ⟨10, _⟩ => ⟨S1x128, .f32⟩
  | .local _ .vmem, ⟨11, _⟩ => ⟨S1x128, .f32⟩
  | .local _ .vmem, ⟨12, _⟩ => ⟨S1024x1000, .f32⟩
  | .local _ .vmem, ⟨13, _⟩ => ⟨S1024x1000, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_call2_v0 : Ref sig .tc := ⟨.hbm, 15, rfl⟩
abbrev main_v3 : Ref sig .tc := ⟨.hbm, 16, rfl⟩
abbrev main_c_2 : Ref sig .tc := ⟨.hbm, 17, rfl⟩
abbrev main_call3_v0 : Ref sig .tc := ⟨.hbm, 18, rfl⟩
abbrev main_v4 : Ref sig .tc := ⟨.hbm, 19, rfl⟩
abbrev main_c_3 : Ref sig .tc := ⟨.hbm, 20, rfl⟩
abbrev main_call4_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_cst_6 : Ref sig .tc := ⟨.hbm, 36, rfl⟩
abbrev main_v16 : Ref sig .tc := ⟨.hbm, 37, rfl⟩
abbrev main_v17 : Ref sig .tc := ⟨.hbm, 38, rfl⟩
abbrev main_cst_7 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  pads_S100x4096_S128x4096_0280_000 : S100x4096.Pads (![0, 0] : Fin 2 → Nat) ![28, 0] ![0, 0] S128x4096
  h_S_ : 0 < S_.numel
  pads_S100_S128_0280 : S100.Pads (![0] : Fin 1 → Nat) ![28] ![0] S128
  shapeCasts_S128_S1x128 : S128.ShapeCasts S1x128
  pads_S1000x100_S1000x128_000_0280 : S1000x100.Pads (![0, 0] : Fin 2 → Nat) ![0, 28] ![0, 0] S1000x128
  shapeCasts_S1000_S1x1000 : S1000.ShapeCasts S1x1000
  inb_S512x4096_S512x4096_0_0 : ∀ a, (![0, 0] : Fin 2 → Nat) a + S512x4096.size a ≤ S512x4096.size a
  h_S512x4096 : 0 < S512x4096.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  reducesTo_S32768x128_S128_d0 : S32768x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  reduces_S1024x1000_S1024 : S1024x1000.Reduces [1] S1024
  shapeCasts_S1024_S1024x1 : S1024.ShapeCasts S1024x1
  broadcasts_S1024x1_S1024x1000 : S1024x1.Broadcasts S1024x1000
  inb_S1024x1000_S1024x1000_0_0 : ∀ a, (![0, 0] : Fin 2 → Nat) a + S1024x1000.size a ≤ S1024x1000.size a
  h_S1024x1000 : 0 < S1024x1000.numel
  dot_S512x4096_S128x4096_S512x128_1_1_0_0_n_n_wf : DotDims.WF S512x4096 S128x4096 S512x128 [1] [1] [0] [0] [] []
  dot_S1024x128_S1000x128_S1024x1000_1_1_0_0_n_n_wf : DotDims.WF S1024x128 S1000x128 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S32768x128.size a
  hwx0_3 : ∀ i : grid0.Coords, EltTy.bits .f32 = 32 ∨ (Rect.block (s := S32768x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S32768x128.size a
  hwx1_0 : ∀ i : grid1.Coords, EltTy.bits .f32 = 32 ∨ (Rect.block (s := S32768x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S1000x128.size a
  hwx1_1 : ∀ i : grid1.Coords, EltTy.bits .f32 = 32 ∨ (Rect.block (s := S1000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1000.size a ≤ S1x1000.size a
  hwx1_2 : ∀ i : grid1.Coords, EltTy.bits .f32 = 32 ∨ (Rect.block (s := S1x1000) S1x1000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1000.size a ≤ S32768x1000.size a
  hwx1_5 : ∀ i : grid1.Coords, EltTy.bits .f32 = 32 ∨ (Rect.block (s := S32768x1000) S1024x1000.size (cc1_transform_5 i) (hinb1_5 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf
def dot_S1024x128_S1000x128_S1024x1000_1_1_0_0_n_n : DotDims S1024x128 S1000x128 S1024x1000 where
  lhsContracting := [1]
  rhsContracting := [1]
  lhsNonContracting := [0]
  rhsNonContracting := [0]
  lhsBatch := []
  rhsBatch := []
  wf := dot_S1024x128_S1000x128_S1024x1000_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1024x1000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32768x4096 : Shape := ⟨2, ![32768, 4096]⟩
abbrev S100x4096 : Shape := ⟨2, ![100, 4096]⟩
abbrev S100 : Shape := ⟨1, ![100]⟩
abbrev S1000x100 : Shape := ⟨2, ![1000, 100]⟩
abbrev S1000 : Shape := ⟨1, ![1000]⟩
abbrev S_ : Shape := ⟨0, ![]⟩
abbrev S4096x100 : Shape := ⟨2, ![4096, 100]⟩
abbrev S32768x100 : Shape := ⟨2, ![32768, 100]⟩
abbrev S1x100 : Shape := ⟨2, ![1, 100]⟩
abbrev S100x1000 : Shape := ⟨2, ![100, 1000]⟩
abbrev S32768x1000 : Shape := ⟨2, ![32768, 1000]⟩
abbrev S1x1000 : Shape := ⟨2, ![1, 1000]⟩
abbrev S32768 : Shape := ⟨1, ![32768]⟩
abbrev S32768x1 : Shape := ⟨2, ![32768, 1]⟩

abbrev nBuf : Space → Nat
  | .hbm => 89
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S100x4096, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S1000x100, .f32⟩
  | .hbm, ⟨6, _⟩ => ⟨S1000, .f32⟩
  | .hbm, ⟨7, _⟩ => ⟨S_, .f32⟩
  | .hbm, ⟨8, _⟩ => ⟨S100x4096, .f32⟩
  | .hbm, ⟨9, _⟩ => ⟨S100x4096, .i1⟩
  | .hbm, ⟨10, _⟩ => ⟨S_, .f32⟩
  | .hbm, ⟨11, _⟩ => ⟨S_, .f32⟩
  | .hbm, ⟨12, _⟩ => ⟨S100x4096, .f32⟩
  | .hbm, ⟨13, _⟩ => ⟨S100x4096, .f32⟩
  | .hbm, ⟨14, _⟩ => ⟨S100x4096, .f32⟩
  | .hbm, ⟨15, _⟩ => ⟨S100x4096, .f32⟩
  | .hbm, ⟨16, _⟩ => ⟨S4096x100, .f32⟩
  | .hbm, ⟨17, _⟩ => ⟨S32768x100, .f32⟩
  | .hbm, ⟨18, _⟩ => ⟨S1x100, .f32⟩
  | .hbm, ⟨19, _⟩ => ⟨S32768x100, .f32⟩
  | .hbm, ⟨20, _⟩ => ⟨S32768x100, .f32⟩
  | .hbm, ⟨21, _⟩ => ⟨S_, .f32⟩
  | .hbm, ⟨22, _⟩ => ⟨S100, .f32⟩
  | .hbm, ⟨23, _⟩ => ⟨S_, .f32⟩
  | .hbm, ⟨24, _⟩ => ⟨S100, .f32⟩
  | .hbm, ⟨25, _⟩ => ⟨S100, .f32⟩
  | .hbm, ⟨26, _⟩ => ⟨S1x100, .f32⟩
  | .hbm, ⟨27, _⟩ => ⟨S32768x100, .f32⟩
  | .hbm, ⟨28, _⟩ => ⟨S32768x100, .f32⟩
  | .hbm, ⟨29, _⟩ => ⟨S32768x100, .f32⟩
  | .hbm, ⟨30, _⟩ => ⟨S_, .f32⟩
  | .hbm, ⟨31, _⟩ => ⟨S100, .f32⟩
  | .hbm, ⟨32, _⟩ => ⟨S_, .f32⟩
  | .hbm, ⟨33, _⟩ => ⟨S100, .f32⟩
  | .hbm, ⟨34, _⟩ => ⟨S100, .f32⟩
  | .hbm, ⟨35, _⟩ => ⟨S1x100, .f32⟩
  | .hbm, ⟨36, _⟩ => ⟨S32768x100, .f32⟩
  | .hbm, ⟨37, _⟩ => ⟨S32768x100, .f32⟩
  | .hbm, ⟨38, _⟩ => ⟨S_, .f32⟩
  | .hbm, ⟨39, _⟩ => ⟨S100, .f32⟩
  | .hbm, ⟨40, _⟩ => ⟨S100, .f32⟩
  | .hbm, ⟨41, _⟩ => ⟨S100, .f32⟩
  | .hbm, ⟨42, _⟩ => ⟨S1x100, .f32⟩
  | .hbm, ⟨43, _⟩ => ⟨S32768x100, .f32⟩
  | .hbm, ⟨44, _⟩ => ⟨S32768x100, .f32⟩
  | .hbm, ⟨45, _⟩ => ⟨S1x100, .f32⟩
  | .hbm, ⟨46, _⟩ => ⟨S32768x100, .f32⟩
  | .hbm, ⟨47, _⟩ => ⟨S32768x100, .f32⟩
  | .hbm, ⟨48, _⟩ => ⟨S1x100, .f32⟩
  | .hbm, ⟨49, _⟩ => ⟨S32768x100, .f32⟩
  | .hbm, ⟨50, _⟩ => ⟨S32768x100, .f32⟩
  | .hbm, ⟨51, _⟩ => ⟨S_, .f32⟩
  | .hbm, ⟨52, _⟩ => ⟨S32768x100, .f32⟩
  | .hbm, ⟨53, _⟩ => ⟨S32768x100, .i1⟩
  | .hbm, ⟨54, _⟩ => ⟨S_, .f32⟩
  | .hbm, ⟨55, _⟩ => ⟨S_, .f32⟩
  | .hbm, ⟨56, _⟩ => ⟨S32768x100, .f32⟩
  | .hbm, ⟨57, _⟩ => ⟨S32768x100, .f32⟩
  | .hbm, ⟨58, _⟩ => ⟨S32768x100, .f32⟩
  | .hbm, ⟨59, _⟩ => ⟨S32768x100, .f32⟩
  | .hbm, ⟨60, _⟩ => ⟨S_, .f32⟩
  | .hbm, ⟨61, _⟩ => ⟨S1000x100, .f32⟩
  | .hbm, ⟨62, _⟩ => ⟨S1000x100, .i1⟩
  | .hbm, ⟨63, _⟩ => ⟨S_, .f32⟩
  | .hbm, ⟨64, _⟩ => ⟨S_, .f32⟩
  | .hbm, ⟨65, _⟩ => ⟨S1000x100, .f32⟩
  | .hbm, ⟨66, _⟩ => ⟨S1000x100, .f32⟩
  | .hbm, ⟨67, _⟩ => ⟨S1000x100, .f32⟩
  | .hbm, ⟨68, _⟩ => ⟨S1000x100, .f32⟩
  | .hbm, ⟨69, _⟩ => ⟨S100x1000, .f32⟩
  | .hbm, ⟨70, _⟩ => ⟨S32768x1000, .f32⟩
  | .hbm, ⟨71, _⟩ => ⟨S1x1000, .f32⟩
  | .hbm, ⟨72, _⟩ => ⟨S32768x1000, .f32⟩
  | .hbm, ⟨73, _⟩ => ⟨S32768x1000, .f32⟩
  | .hbm, ⟨74, _⟩ => ⟨S_, .f32⟩
  | .hbm, ⟨75, _⟩ => ⟨S32768, .f32⟩
  | .hbm, ⟨76, _⟩ => ⟨S_, .f32⟩
  | .hbm, ⟨77, _⟩ => ⟨S32768, .f32⟩
  | .hbm, ⟨78, _⟩ => ⟨S32768, .f32⟩
  | .hbm, ⟨79, _⟩ => ⟨S32768x1, .f32⟩
  | .hbm, ⟨80, _⟩ => ⟨S32768x1000, .f32⟩
  | .hbm, ⟨81, _⟩ => ⟨S32768x1000, .f32⟩
  | .hbm, ⟨82, _⟩ => ⟨S32768x1000, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S32768x1, .f32⟩
  | .hbm, ⟨87, _⟩ => ⟨S32768x1000, .f32⟩
  | .hbm, ⟨88, _⟩ => ⟨S32768x1000, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_cst_9 : Ref sig .tc := ⟨.hbm, 55, rfl⟩
abbrev main_call1_v0 : Ref sig .tc := ⟨.hbm, 56, rfl⟩
abbrev main_call1_v1 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_cst_11 : Ref sig .tc := ⟨.hbm, 63, rfl⟩
abbrev main_cst_12 : Ref sig .tc := ⟨.hbm, 64, rfl⟩
abbrev main_call2_v0 : Ref sig .tc := ⟨.hbm, 65, rfl⟩
abbrev main_call2_v1 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call3_cst : Ref sig .tc := ⟨.hbm, 74, rfl⟩
abbrev main_call3_v0 : Ref sig .tc := ⟨.hbm, 75, rfl⟩
abbrev main_call3_cst_0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_cst_1 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_v47 : Ref sig .tc := ⟨.hbm, 88, rfl⟩

abbrev nD : Nat := 1
abbrev τ : Topo := Topo.v7x

variable {F : FTy → Type} [FloatOps F]

class Facts₀ : Prop where
  bcast_S_S100x4096 : S_.BroadcastsInDim S100x4096 (![] : Fin 0 → Fin S100x4096.rank)
  transposes_S100x4096_S4096x100_1_0 : S100x4096.Transposes [1, 0] S4096x100
  bcast_S100_S1x100_1 : S100.BroadcastsInDim S1x100 (![1] : Fin 1 → Fin S1x100.rank)
  bcast_S1x100_S32768x100_0_1 : S1x100.BroadcastsInDim S32768x100 (![0, 1] : Fin 2 → Fin S32768x100.rank)
  reducesTo_S32768x100_S100_d0 : S32768x100.ReducesTo [0] S100
  h_S_ : 0 < S_.numel
  bcast_S_S100 : S_.BroadcastsInDim S100 (![] : Fin 0 → Fin S100.rank)
  bcast_S_S32768x100 : S_.BroadcastsInDim S32768x100 (![] : Fin 0 → Fin S32768x100.rank)
  bcast_S_S1000x100 : S_.BroadcastsInDim S1000x100 (![] : Fin 0 → Fin S1000x100.rank)
  transposes_S1000x100_S100x1000_1_0 : S1000x100.Transposes [1, 0] S100x1000
  bcast_S1000_S1x1000_1 : S1000.BroadcastsInDim S1x1000 (![1] : Fin 1 → Fin S1x1000.rank)
  bcast_S1x1000_S32768x1000_0_1 : S1x1000.BroadcastsInDim S32768x1000 (![0, 1] : Fin 2 → Fin S32768x1000.rank)
  reducesTo_S32768x1000_S32768_d1 : S32768x1000.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  dot_S32768x4096_S4096x100_S32768x100_1_0_0_1_n_n_wf : DotDims.WF S32768x4096 S4096x100 S32768x100 [1] [0] [0] [1] [] []
  dot_S32768x100_S100x1000_S32768x1000_1_0_0_1_n_n_wf : DotDims.WF S32768x100 S100x1000 S32768x1000 [1] [0] [0] [1] [] []

variable [Facts₀]

def dot_S32768x4096_S4096x100_S32768x100_1_0_0_1_n_n : DotDims S32768x4096 S4096x100 S32768x100 where
  lhsContracting := [1]
  rhsContracting := [0]
  lhsNonContracting := [0]
  rhsNonContracting := [1]
  lhsBatch := []
  rhsBatch := []
  wf := dot_S32768x4096_S4096x100_S32768x100_1_0_0_1_n_n_wf
def dot_S32768x100_S100x1000_S32768x1000_1_0_0_1_n_n : DotDims S32768x100 S100x1000 S32768x1000 where
  lhsContracting := [1]
  rhsContracting := [0]
  lhsNonContracting := [0]
  rhsNonContracting := [1]
  lhsBatch := []
  rhsBatch := []
  wf := dot_S32768x100_S100x1000_S32768x1000_1_0_0_1_n_n_wf

class Facts : Prop extends Facts₀ where

variable [Facts]
-- ==== Proof.KernelRun.lean ====
/-
  The idealized kernel's whole run with its result array named.

  The program is two kernel launches among stretches of host operations. Its run ends with every buffer of the
  TensorCore that outlives the launches at the contents the last segment boundary names: the fold of the host
  stretches and of the two launches' write-backs from the launch memory. Read at the argument arrays that fold is the
  launch memory (they are never written); read at the result array it is what the second launch's write-backs leave.
-/
import proofs.«175901_j47201690583460_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v27) = W14 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v27 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.RunValue

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.Spec.lean ====
/-
  A two-layer network with sign-binarized weights and activations, batch normalisation between the layers and a
  log-softmax at the end, written once the way each program computes it, over plain finite index sets.

  For a batch of B rows, a hidden width H and N output classes, from the hidden pre-activations h (b, j):
  • each hidden column j has the batch mean μ_j, the biased batch variance σ²_j (mean of squared deviations) and the
    reciprocal deviation r_j = (σ²_j + ε)^(-1/2);
  • the PLAIN normalisation is ((h − μ_j) · r_j) · γ_j + β_j, the FOLDED one h · (γ_j · r_j) + (β_j − (μ_j · γ_j) · r_j);
  • the activation is the binarizer sgn (+1 at z ≥ 0, −1 below), the logits are o (b, n) = Σ_j sgn(…) · w (n, j) + c_n,
    and the result is the row's log-softmax (o − m) − log Σ_n exp (o − m) with m the row's maximum.
  The two programs differ in the normalisation's arrangement, in whether the running maximum is joined once more with
  its start value −∞, in whether the sum of exponentials starts from an explicit 0, and in the hidden width (one of
  them carries extra zero-padded columns). Every literal is kept as the f32 word both programs print.
-/
import Idealize.ShloMosaic.PureOps.Ideal
import Idealize.ShloMosaic.PureOps.Ideal.Laws
import proofs.«175901_j47201690583460_2_alg».proof.Proof.LibMaxReduce

noncomputable section

namespace Cert.BinNet

open Idealize.ShloMosaic Cert.LibMaxReduce

/-- The words both programs print: 0, 1, −1, the batch size 32768, the variance offset ε ≈ 1e-4, and −∞. -/
def zeroW : EReal := Ideal.ofBits .f32 0x00000000#32
def oneW : EReal := Ideal.ofBits .f32 0x3F800000#32
def negOneW : EReal := Ideal.ofBits .f32 0xBF800000#32
def countW : EReal := Ideal.ofBits .f32 0x47000000#32
def epsW : EReal := Ideal.ofBits .f32 0x38D1B717#32
def negInfW : EReal := Ideal.ofBits .f32 0xFF800000#32

/-- The binarizer: +1 where z ≥ 0, −1 elsewhere. -/
def sgn (z : EReal) : EReal := Scalar.select (Ideal.cmp .oge z zeroW) oneW negOneW

section Stats
variable {B : ℕ}

/-- The batch mean of a column: its sum (from the start value 0) over the batch size. -/
def mean (c : Fin B → EReal) : EReal := Ideal.div (zeroW + ∑ b, c b) countW

/-- The biased batch variance of a column: the mean of the squared deviations from the batch mean. -/
def variance (c : Fin B → EReal) : EReal := Ideal.div (zeroW + ∑ b, (c b - mean c) * (c b - mean c)) countW

/-- The reciprocal deviation (σ² + ε)^(-1/2). -/
def rstd (c : Fin B → EReal) : EReal := Ideal.rsqrt (variance c + epsW)

end Stats

/-- The plain normalisation of the entry (b, j): ((h − μ) · r) · γ + β. -/
def plainNorm {B H : ℕ} (h : Fin B → Fin H → EReal) (γ β : Fin H → EReal) (b : Fin B) (j : Fin H) : EReal :=
  ((h b j - mean (fun b' => h b' j)) * rstd (fun b' => h b' j)) * γ j + β j

/-- The folded normalisation of the entry (b, j): h · (γ · r) + (β − (μ · γ) · r). -/
def foldedNorm {B H : ℕ} (h : Fin B → Fin H → EReal) (γ β : Fin H → EReal) (b : Fin B) (j : Fin H) : EReal :=
  h b j * (γ j * rstd (fun b' => h b' j)) + (β j - (mean (fun b' => h b' j) * γ j) * rstd (fun b' => h b' j))

/-- The logits of a row from its (already normalised) hidden entries: Σ_j sgn (z_j) · w (n, j) + c_n. -/
def logits {H N : ℕ} (z : Fin H → EReal) (w : Fin N → Fin H → EReal) (c : Fin N → EReal) (n : Fin N) : EReal :=
  (∑ j, sgn (z j) * w n j) + c n

/-- A row's log-softmax with the running maximum joined once more with −∞ and the sum of exponentials started from 0. -/
def logSoftmaxJoined {N : ℕ} (o : Fin N → EReal) (n : Fin N) : EReal :=
  (o n - max negInfW (foldMax negInfW o))
    - Ideal.log (zeroW + ∑ n', Ideal.exp (o n' - max negInfW (foldMax negInfW o)))

/-- A row's log-softmax with the running maximum from −∞ and the bare sum of exponentials. -/
def logSoftmaxBare {N : ℕ} (o : Fin N → EReal) (n : Fin N) : EReal :=
  (o n - foldMax negInfW o) - Ideal.log (∑ n', Ideal.exp (o n' - foldMax negInfW o))

/-- The network with the plain normalisation and the joined log-softmax, at row b and class n. -/
def plainNet {B H N : ℕ} (h : Fin B → Fin H → EReal) (γ β : Fin H → EReal) (w : Fin N → Fin H → EReal) (c : Fin N → EReal)
    (b : Fin B) (n : Fin N) : EReal :=
  logSoftmaxJoined (logits (fun j => plainNorm h γ β b j) w c) n

/-- The network with the folded normalisation and the bare log-softmax, at row b and class n. -/
def foldedNet {B H N : ℕ} (h : Fin B → Fin H → EReal) (γ β : Fin H → EReal) (w : Fin N → Fin H → EReal) (c : Fin N → EReal)
    (b : Fin B) (n : Fin N) : EReal :=
  logSoftmaxBare (logits (fun j => foldedNorm h γ β b j) w c) n

end Cert.BinNet

end
-- ==== Proof.HostStats.lean ====
/-
  The host operations between the two launches, as functions of the hidden array, and read at an entry.

  From the [32768, 128] hidden array the host takes, column by column, the batch mean (the column's sum from the start
  value 0 over the batch size), the biased batch variance (the same mean of the squared deviations) and the reciprocal
  deviation (variance + ε)^(-1/2); from these and the (padded) scale γ and shift β it forms the two rows the second
  launch reads: γ · r, and β − (μ · γ) · r. Read at column j each is the scalar formula over the j-th column.
-/
import proofs.«175901_j47201690583460_2_alg».proof.KernelIdeal
import proofs.«175901_j47201690583460_2_alg».proof.Proof.Gen.KernelIdeal
import proofs.«175901_j47201690583460_2_alg».proof.Proof.Spec
import Idealize.ShloMosaic.Lib.Pipeline.Value
import Idealize.ShloMosaic.Lib.ValueIdx
import Idealize.ShloMosaic.PureOps.Ideal.Laws

noncomputable section

namespace Cert.KernelIdeal.HostStage

open Cert.KernelIdeal Cert.KernelIdeal.Facts₀ Idealize.ShloMosaic Idealize.ShloMosaic.ValueIdx Cert.BinNet

/-- A vector over the 128 columns spread over the 32768 rows. -/
def overRows (v : FVec Ideal S128 .f32) : FVec Ideal S32768x128 .f32 :=
  broadcastInDim S32768x128 ![0, 1] bcast_S1x128_S32768x128_0_1 (broadcastInDim S1x128 ![1] bcast_S128_S1x128_1 v)

/-- The columns' batch means. -/
def colMean (Hh : FVec Ideal S32768x128 .f32) : FVec Ideal S128 .f32 :=
  Host.divf (Host.reduceAdd Hh (constant (F := Ideal) S_ .f32 0x00000000#32) reducesTo_S32768x128_S128_d0 h_S_)
    (broadcastInDim S128 ![] bcast_S_S128 (constant (F := Ideal) S_ .f32 0x47000000#32))

/-- The columns' biased batch variances. -/
def colVar (Hh : FVec Ideal S32768x128 .f32) : FVec Ideal S128 .f32 :=
  Host.divf (Host.reduceAdd (mulf (subf Hh (overRows (colMean Hh))) (subf Hh (overRows (colMean Hh))))
      (constant (F := Ideal) S_ .f32 0x00000000#32) reducesTo_S32768x128_S128_d0 h_S_)
    (broadcastInDim S128 ![] bcast_S_S128 (constant (F := Ideal) S_ .f32 0x47000000#32))

/-- The columns' reciprocal deviations. -/
def colRstd (Hh : FVec Ideal S32768x128 .f32) : FVec Ideal S128 .f32 :=
  Host.rsqrt (addf (colVar Hh) (broadcastInDim S128 ![] bcast_S_S128 (constant (F := Ideal) S_ .f32 0x38D1B717#32)))

/-- The scale row γ · r. -/
def scaleRow (Hh : FVec Ideal S32768x128 .f32) (γp : FVec Ideal S128 .f32) : FVec Ideal S1x128 .f32 :=
  shapeCast S1x128 (mulf γp (colRstd Hh)) shapeCasts_S128_S1x128

/-- The shift row β − (μ · γ) · r. -/
def shiftRow (Hh : FVec Ideal S32768x128 .f32) (γp βp : FVec Ideal S128 .f32) : FVec Ideal S1x128 .f32 :=
  shapeCast S1x128 (subf βp (mulf (mulf (colMean Hh) γp) (colRstd Hh))) shapeCasts_S128_S1x128

/-- The host's sum over the rows, read at column j: the start value plus the column's sum. -/
theorem colSum_apply (X : FVec Ideal S32768x128 .f32) (j : Fin 128) :
    Host.reduceAdd X (constant (F := Ideal) S_ .f32 0x00000000#32) reducesTo_S32768x128_S128_d0 h_S_ (ix1 j)
      = zeroW + ∑ b : Fin 32768, X (ix2 b j) := by
  simp only [Host.reduceAdd, Ideal.hostReduceAdd_def]
  rw [Ideal.hostReduceAdd_single reducesTo_S32768x128_S128_d0 (by decide)]
  refine congrArg₂ (· + ·) rfl (Finset.sum_congr rfl fun k _ => ?_)
  exact congrArg X (funext fun a => Fin.ext (by match a with | ⟨0, _⟩ => rfl | ⟨1, _⟩ => rfl))

/-- A scalar constant spread over the 128 columns reads the constant's value everywhere. -/
theorem splat_apply (w : BitVec 32) (j : Fin 128) :
    broadcastInDim S128 ![] bcast_S_S128 (constant (F := Ideal) S_ .f32 w) (ix1 j) = Ideal.ofBits .f32 w :=
  (broadcastInDim_apply ![] bcast_S_S128 (constant (F := Ideal) S_ .f32 w) (ix1 j) ix0 (fun a => a.elim0)).trans rfl

/-- A vector over the columns spread over the rows reads, at (b, j), its entry j. -/
theorem overRows_apply (v : FVec Ideal S128 .f32) (b : Fin 32768) (j : Fin 128) : overRows v (ix2 b j) = v (ix1 j) := by
  unfold overRows
  refine (broadcastInDim_apply ![0, 1] bcast_S1x128_S32768x128_0_1 _ (ix2 b j) (ix2 (0 : Fin 1) j) fun a => ?_).trans ?_
  · match a with
    | ⟨0, _⟩ => show (0 : ℕ) = if (1 : ℕ) = 1 then 0 else b.val; rw [if_pos rfl]
    | ⟨1, _⟩ => show j.val = if (128 : ℕ) = 1 then 0 else j.val; rw [if_neg (by decide)]
  · refine broadcastInDim_apply ![1] bcast_S128_S1x128_1 v (ix2 (0 : Fin 1) j) (ix1 j) fun a => ?_
    match a with
    | ⟨0, _⟩ => show j.val = if (128 : ℕ) = 1 then 0 else j.val; rw [if_neg (by decide)]

/-- A vector over the columns cast to a row reads, at (0, j), its entry j. -/
theorem rowCast_apply (v : FVec Ideal S128 .f32) (j : Fin 128) :
    shapeCast S1x128 v shapeCasts_S128_S1x128 (ix2 (0 : Fin 1) j) = v (ix1 j) :=
  shapeCast_apply v shapeCasts_S128_S1x128 _ _ (by
    rw [Shape.rowMajor_val_one, Shape.rowMajor_val_two]
    show j.val = 0 * 128 + j.val
    omega)

/-- The batch mean of column j. -/
theorem colMean_apply (Hh : FVec Ideal S32768x128 .f32) (j : Fin 128) :
    colMean Hh (ix1 j) = mean (fun b : Fin 32768 => Hh (ix2 b j)) := by
  unfold colMean mean countW
  show Ideal.div _ _ = Ideal.div _ _
  rw [colSum_apply, splat_apply]

/-- The biased batch variance of column j. -/
theorem colVar_apply (Hh : FVec Ideal S32768x128 .f32) (j : Fin 128) :
    colVar Hh (ix1 j) = variance (fun b : Fin 32768 => Hh (ix2 b j)) := by
  unfold colVar variance countW
  show Ideal.div _ _ = Ideal.div _ _
  rw [colSum_apply, splat_apply]
  refine congrArg (fun z : EReal => Ideal.div (zeroW + z) (Ideal.ofBits .f32 0x47000000#32)) (Finset.sum_congr rfl fun b _ => ?_)
  show (Hh (ix2 b j) - overRows (colMean Hh) (ix2 b j)) * (Hh (ix2 b j) - overRows (colMean Hh) (ix2 b j)) = _
  rw [overRows_apply, colMean_apply]

/-- The reciprocal deviation of column j. -/
theorem colRstd_apply (Hh : FVec Ideal S32768x128 .f32) (j : Fin 128) :
    colRstd Hh (ix1 j) = rstd (fun b : Fin 32768 => Hh (ix2 b j)) := by
  unfold colRstd rstd epsW
  show Ideal.rsqrt (colVar Hh (ix1 j) + broadcastInDim S128 ![] bcast_S_S128 (constant (F := Ideal) S_ .f32 0x38D1B717#32) (ix1 j)) = _
  rw [colVar_apply, splat_apply]

/-- The scale row at column j: γ_j · r_j. -/
theorem scaleRow_apply (Hh : FVec Ideal S32768x128 .f32) (γp : FVec Ideal S128 .f32) (j : Fin 128) :
    scaleRow Hh γp (ix2 (0 : Fin 1) j) = γp (ix1 j) * rstd (fun b : Fin 32768 => Hh (ix2 b j)) := by
  unfold scaleRow
  rw [rowCast_apply]
  show γp (ix1 j) * colRstd Hh (ix1 j) = _
  rw [colRstd_apply]

/-- The shift row at column j: β_j − (μ_j · γ_j) · r_j. -/
theorem shiftRow_apply (Hh : FVec Ideal S32768x128 .f32) (γp βp : FVec Ideal S128 .f32) (j : Fin 128) :
    shiftRow Hh γp βp (ix2 (0 : Fin 1) j)
      = βp (ix1 j) - (mean (fun b : Fin 32768 => Hh (ix2 b j)) * γp (ix1 j)) * rstd (fun b : Fin 32768 => Hh (ix2 b j)) := by
  unfold shiftRow
  rw [rowCast_apply]
  show βp (ix1 j) - (colMean Hh (ix1 j) * γp (ix1 j)) * colRstd Hh (ix1 j) = _
  rw [colMean_apply, colRstd_apply]

end Cert.KernelIdeal.HostStage

end
-- ==== Proof.Layers.lean ====
/-
  The two programs' results as whole-array functions of the seven argument arrays.

  x is the [32768, 4096] input batch, W1 the [100, 4096] first-layer weights, b1 its bias, γ and β the normalisation's
  scale and shift, W2 the [1000, 100] second-layer weights, b2 its bias. The hidden pre-activation of row b and hidden
  unit j is Σ_k x (b, k) · sgn W1 (j, k) + b1 (j); the second layer's binarized weight of class n and unit j is
  sgn W2 (n, j).
  One program computes on exactly the 100 hidden units with the plain normalisation; the other pads the hidden width to
  128 — rows of zeros under W1, zeros after b1, γ and β, columns of zeros beside W2 — and uses the folded normalisation.
-/
import Idealize.ShloMosaic.Lib.ValueIdx
import proofs.«175901_j47201690583460_2_alg».proof.Proof.Spec

noncomputable section

namespace Cert.BinNet

open Idealize.ShloMosaic Idealize.ShloMosaic.ValueIdx

/-- A matrix and a vector of extended reals over literal extents. -/
abbrev Mat (a b : ℕ) : Type := (⟨2, ![a, b]⟩ : Shape).Idx → EReal
abbrev Vct (a : ℕ) : Type := (⟨1, ![a]⟩ : Shape).Idx → EReal

/-- A vector of 100 entries followed by 28 zeros. -/
def padded (v : Fin 100 → EReal) (j : Fin 128) : EReal := if h : j.val < 100 then v ⟨j.val, h⟩ else 0

/-- The hidden pre-activations on the 100 hidden units. -/
def hidden (x : Mat 32768 4096) (W1 : Mat 100 4096) (b1 : Vct 100) (b : Fin 32768) (j : Fin 100) : EReal :=
  (∑ k : Fin 4096, x (ix2 b k) * sgn (W1 (ix2 j k))) + b1 (ix1 j)

/-- The hidden pre-activations on the padded width: unit j ≥ 100 has the weight row 0 and the bias 0. -/
def hiddenPadded (x : Mat 32768 4096) (W1 : Mat 100 4096) (b1 : Vct 100) (b : Fin 32768) (j : Fin 128) : EReal :=
  (∑ k : Fin 4096, x (ix2 b k) * sgn (padded (fun j' => W1 (ix2 j' k)) j)) + padded (fun j' => b1 (ix1 j')) j

/-- The second layer's binarized weights. -/
def outWeights (W2 : Mat 1000 100) (n : Fin 1000) (j : Fin 100) : EReal := sgn (W2 (ix2 n j))

/-- The same on the padded width: the weight of a unit j ≥ 100 is 0 before it is binarized. -/
def outWeightsPadded (W2 : Mat 1000 100) (n : Fin 1000) (j : Fin 128) : EReal := sgn (padded (fun j' => W2 (ix2 n j')) j)

/-- The result of the program that works on the 100 hidden units. -/
def plainResult (x : Mat 32768 4096) (W1 : Mat 100 4096) (b1 γ β : Vct 100) (W2 : Mat 1000 100) (b2 : Vct 1000) : Mat 32768 1000 :=
  fun i => plainNet (hidden x W1 b1) (fun j => γ (ix1 j)) (fun j => β (ix1 j)) (outWeights W2) (fun n => b2 (ix1 n)) (i 0) (i 1)

/-- The result of the program that works on the padded width. -/
def paddedResult (x : Mat 32768 4096) (W1 : Mat 100 4096) (b1 γ β : Vct 100) (W2 : Mat 1000 100) (b2 : Vct 1000) : Mat 32768 1000 :=
  fun i => foldedNet (hiddenPadded x W1 b1) (padded fun j => γ (ix1 j)) (padded fun j => β (ix1 j)) (outWeightsPadded W2)
    (fun n => b2 (ix1 n)) (i 0) (i 1)

end Cert.BinNet

end
-- ==== Proof.PadRead.lean ====
/-
  The kernel's padded operands read at an entry.

  The second program pads the hidden width from 100 to 128 with the value 0 (the integer 0 converted): rows of zeros
  under the first-layer weights, zeros after the three vectors of 100 entries, columns of zeros beside the second-layer
  weights. Read at unit j each padded array is the operand at j where j < 100, and 0 beyond. A vector cast to a row
  [1, n] reads, at (0, e), its entry e.
-/
import proofs.«175901_j47201690583460_2_alg».proof.KernelIdeal
import proofs.«175901_j47201690583460_2_alg».proof.Proof.Gen.KernelIdeal
import proofs.«175901_j47201690583460_2_alg».proof.Proof.Layers
import Idealize.ShloMosaic.Lib.KernelVsHost
import Idealize.ShloMosaic.Lib.Pipeline.Value
import Idealize.ShloMosaic.Lib.ValueIdx

noncomputable section

namespace Cert.KernelIdeal.PadRead

open Cert.KernelIdeal Idealize.ShloMosaic Idealize.ShloMosaic.ValueIdx Cert.BinNet

/-- The padding value: the integer 0 converted to a float. -/
def padZero : FVec Ideal S_ .f32 := sitofp .f32 (constantI S_ 32 0#32)

/-- It is 0. -/
theorem padZero_apply (i : S_.Idx) : padZero i = 0 := by
  show (((0#32 : BitVec 32).toInt : ℝ) : EReal) = 0
  simp

/-- The first-layer weights with 28 rows of zeros below, read at (j, k). -/
theorem padRows_apply (W : FVec Ideal S100x4096 .f32) (j : Fin 128) (k : Fin 4096) :
    pad S128x4096 ![0, 0] ![28, 0] ![0, 0] W padZero Facts₀.pads_S100x4096_S128x4096_0280_000 Facts₀.h_S_ (ix2 j k)
      = padded (fun j' : Fin 100 => W (ix2 j' k)) j := by
  unfold padded
  by_cases h : j.val < 100
  · rw [dif_pos h]
    refine pad_apply_of_inside _ _ _ W padZero _ _ (ix2 j k) (ix2 (⟨j.val, h⟩ : Fin 100) k) fun a => ?_
    match a with
    | ⟨0, _⟩ => show j.val = 0 + j.val * (0 + 1); omega
    | ⟨1, _⟩ => show k.val = 0 + k.val * (0 + 1); omega
  · rw [dif_neg h]
    refine (pad_apply_of_not_inside _ _ _ W padZero _ _ (ix2 j k) (0 : Fin 2) ?_).trans (padZero_apply _)
    show ¬(0 ≤ j.val ∧ (j.val - 0) % (0 + 1) = 0 ∧ (j.val - 0) / (0 + 1) < 100)
    omega

/-- A vector of 100 entries with 28 zeros after it, read at j. -/
theorem padVec_apply (v : FVec Ideal S100 .f32) (j : Fin 128) :
    pad S128 ![0] ![28] ![0] v padZero Facts₀.pads_S100_S128_0280 Facts₀.h_S_ (ix1 j) = padded (fun j' : Fin 100 => v (ix1 j')) j := by
  unfold padded
  by_cases h : j.val < 100
  · rw [dif_pos h]
    refine pad_apply_of_inside _ _ _ v padZero _ _ (ix1 j) (ix1 (⟨j.val, h⟩ : Fin 100)) fun a => ?_
    match a with
    | ⟨0, _⟩ => show j.val = 0 + j.val * (0 + 1); omega
  · rw [dif_neg h]
    refine (pad_apply_of_not_inside _ _ _ v padZero _ _ (ix1 j) (0 : Fin 1) ?_).trans (padZero_apply _)
    show ¬(0 ≤ j.val ∧ (j.val - 0) % (0 + 1) = 0 ∧ (j.val - 0) / (0 + 1) < 100)
    omega

/-- The second-layer weights with 28 columns of zeros beside them, read at (n, j). -/
theorem padCols_apply (W : FVec Ideal S1000x100 .f32) (n : Fin 1000) (j : Fin 128) :
    pad S1000x128 ![0, 0] ![0, 28] ![0, 0] W padZero Facts₀.pads_S1000x100_S1000x128_000_0280 Facts₀.h_S_ (ix2 n j)
      = padded (fun j' : Fin 100 => W (ix2 n j')) j := by
  unfold padded
  by_cases h : j.val < 100
  · rw [dif_pos h]
    refine pad_apply_of_inside _ _ _ W padZero _ _ (ix2 n j) (ix2 n (⟨j.val, h⟩ : Fin 100)) fun a => ?_
    match a with
    | ⟨0, _⟩ => show n.val = 0 + n.val * (0 + 1); omega
    | ⟨1, _⟩ => show j.val = 0 + j.val * (0 + 1); omega
  · rw [dif_neg h]
    refine (pad_apply_of_not_inside _ _ _ W padZero _ _ (ix2 n j) (1 : Fin 2) ?_).trans (padZero_apply _)
    show ¬(0 ≤ j.val ∧ (j.val - 0) % (0 + 1) = 0 ∧ (j.val - 0) / (0 + 1) < 100)
    omega

/-- A vector of 128 entries cast to a row reads, at (0, j), its entry j. -/
theorem row128_apply (v : FVec Ideal S128 .f32) (j : Fin 128) :
    shapeCast S1x128 v Facts₀.shapeCasts_S128_S1x128 (ix2 (0 : Fin 1) j) = v (ix1 j) :=
  shapeCast_apply v Facts₀.shapeCasts_S128_S1x128 _ _ (by
    rw [Shape.rowMajor_val_one, Shape.rowMajor_val_two]
    show j.val = 0 * 128 + j.val
    omega)

/-- A vector of 1000 entries cast to a row reads, at (0, n), its entry n. -/
theorem row1000_apply (v : FVec Ideal S1000 .f32) (n : Fin 1000) :
    shapeCast S1x1000 v Facts₀.shapeCasts_S1000_S1x1000 (ix2 (0 : Fin 1) n) = v (ix1 n) :=
  shapeCast_apply v Facts₀.shapeCasts_S1000_S1x1000 _ _ (by
    rw [Shape.rowMajor_val_one, Shape.rowMajor_val_two]
    show n.val = 0 * 1000 + n.val
    omega)

end Cert.KernelIdeal.PadRead

end
-- ==== Proof.KernelHost.lean ====
/-
  The kernel program's buffers at the two launches' entries, from the launch memory.

  Before the first launch the host pads the first-layer weights, the first bias, the scale, the shift and the
  second-layer weights to the hidden width 128 and makes rows of the two biases; the input batch is untouched. Between
  the launches it computes, from the hidden array the first launch left, the scale and shift rows of the folded
  normalisation. Here each buffer a launch reads is read off the fold of those operations: at the first launch's entry
  as a function of the argument arrays, at the second launch's entry as a function of the first launch's output and of
  the padded vectors.
-/
import proofs.«175901_j47201690583460_2_alg».proof.Proof.Gen.KernelIdeal.Frame
import proofs.«175901_j47201690583460_2_alg».proof.Proof.HostStats
import proofs.«175901_j47201690583460_2_alg».proof.Proof.PadRead
import Idealize.ShloMosaic.Lib.StableHlo.Run
import Idealize.ShloMosaic.PureOps.Ideal

set_option maxRecDepth 16384

noncomputable section

namespace Cert.KernelIdeal.HostFold

open Cert.KernelIdeal Cert.KernelIdeal.Gen Cert.KernelIdeal.PadRead Cert.KernelIdeal.HostStage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first launch's entry -/

/-- The input batch is the argument. -/
theorem entry0_batch (c : Dev nD) : V11 m ρ c main_arg0 = m ((c : Thread nD τ).loc main_arg0) := by
  show W11 m ρ c (Proc.devRef .tc main_arg0) = _
  simp only [W11, W10, W9, W8, W7, W6, W5, W4, W3, W2, W1, hostOps0, hostOps0_1, hostOps0_2, hostOps0_3, hostOps0_4, hostOps0_5,
    hostOps0_6, hostOps0_7, hostOps0_8, hostOps0_9, hostOps0_10]
  after_results

/-- The padded first-layer weights. -/
theorem entry0_weights (c : Dev nD) :
    V11 m ρ c main_v0 = pad S128x4096 ![0, 0] ![28, 0] ![0, 0] (m ((c : Thread nD τ).loc main_arg1)) padZero
      Facts₀.pads_S100x4096_S128x4096_0280_000 Facts₀.h_S_ := by
  show W11 m ρ c (Proc.devRef .tc main_v0) = _
  simp only [W11, W10, W9, W8, W7, W6, W5, W4, W3, W2, W1, hostOps0, hostOps0_1, hostOps0_2, hostOps0_3, hostOps0_4, hostOps0_5,
    hostOps0_6, hostOps0_7, hostOps0_8, hostOps0_9, hostOps0_10]
  after_results
  simp only [TRef.toBuf, TRef.ofBuf, TRef.of, cast_eq]
  rfl

/-- The padded first bias as a row. -/
theorem entry0_bias (c : Dev nD) :
    V11 m ρ c main_v2 = shapeCast S1x128 (pad S128 ![0] ![28] ![0] (m ((c : Thread nD τ).loc main_arg2)) padZero
      Facts₀.pads_S100_S128_0280 Facts₀.h_S_) Facts₀.shapeCasts_S128_S1x128 := by
  show W11 m ρ c (Proc.devRef .tc main_v2) = _
  simp only [W11, W10, W9, W8, W7, W6, W5, W4, W3, W2, W1, hostOps0, hostOps0_1, hostOps0_2, hostOps0_3, hostOps0_4, hostOps0_5,
    hostOps0_6, hostOps0_7, hostOps0_8, hostOps0_9, hostOps0_10]
  after_results
  simp only [TRef.toBuf, TRef.ofBuf, TRef.of, cast_eq]
  rfl

/-- The padded scale. -/
theorem entry0_scale (c : Dev nD) :
    W11 m ρ c (Proc.devRef .tc main_v3) = pad S128 ![0] ![28] ![0] (m ((c : Thread nD τ).loc main_arg3)) padZero
      Facts₀.pads_S100_S128_0280 Facts₀.h_S_ := by
  simp only [W11, W10, W9, W8, W7, W6, W5, W4, W3, W2, W1, hostOps0, hostOps0_1, hostOps0_2, hostOps0_3, hostOps0_4, hostOps0_5,
    hostOps0_6, hostOps0_7, hostOps0_8, hostOps0_9, hostOps0_10]
  after_results
  simp only [TRef.toBuf, TRef.ofBuf, TRef.of, cast_eq]
  rfl

/-- The padded shift. -/
theorem entry0_shift (c : Dev nD) :
    W11 m ρ c (Proc.devRef .tc main_v4) = pad S128 ![0] ![28] ![0] (m ((c : Thread nD τ).loc main_arg4)) padZero
      Facts₀.pads_S100_S128_0280 Facts₀.h_S_ := by
  simp only [W11, W10, W9, W8, W7, W6, W5, W4, W3, W2, W1, hostOps0, hostOps0_1, hostOps0_2, hostOps0_3, hostOps0_4, hostOps0_5,
    hostOps0_6, hostOps0_7, hostOps0_8, hostOps0_9, hostOps0_10]
  after_results
  simp only [TRef.toBuf, TRef.ofBuf, TRef.of, cast_eq]
  rfl

/-- The padded second-layer weights. -/
theorem entry0_outWeights (c : Dev nD) :
    W11 m ρ c (Proc.devRef .tc main_v5) = pad S1000x128 ![0, 0] ![0, 28] ![0, 0] (m ((c : Thread nD τ).loc main_arg5)) padZero
      Facts₀.pads_S1000x100_S1000x128_000_0280 Facts₀.h_S_ := by
  simp only [W11, W10, W9, W8, W7, W6, W5, W4, W3, W2, W1, hostOps0, hostOps0_1, hostOps0_2, hostOps0_3, hostOps0_4, hostOps0_5,
    hostOps0_6, hostOps0_7, hostOps0_8, hostOps0_9, hostOps0_10]
  after_results
  simp only [TRef.toBuf, TRef.ofBuf, TRef.of, cast_eq]
  rfl

/-- The second bias as a row. -/
theorem entry0_outBias (c : Dev nD) :
    W11 m ρ c (Proc.devRef .tc main_v6) = shapeCast S1x1000 (m ((c : Thread nD τ).loc main_arg6)) Facts₀.shapeCasts_S1000_S1x1000 := by
  simp only [W11, W10, W9, W8, W7, W6, W5, W4, W3, W2, W1, hostOps0, hostOps0_1, hostOps0_2, hostOps0_3, hostOps0_4, hostOps0_5,
    hostOps0_6, hostOps0_7, hostOps0_8, hostOps0_9, hostOps0_10]
  after_results
  rfl

/-! ## At the second launch's entry -/

/-- The hidden array is what the first launch left. -/
theorem entry1_hidden (c : Dev nD) : V13 m ρ c main_v7 = W12 m ρ c (Proc.devRef .tc main_v7) := by
  show W13 m ρ c (Proc.devRef .tc main_v7) = _
  simp only [W13, hostOps1]
  after_results

/-- The padded second-layer weights are as at the first launch's entry. -/
theorem entry1_outWeights (c : Dev nD) : V13 m ρ c main_v5 = W12 m ρ c (Proc.devRef .tc main_v5) := by
  show W13 m ρ c (Proc.devRef .tc main_v5) = _
  simp only [W13, hostOps1]
  after_results

/-- The second bias row likewise. -/
theorem entry1_outBias (c : Dev nD) : V13 m ρ c main_v6 = W12 m ρ c (Proc.devRef .tc main_v6) := by
  show W13 m ρ c (Proc.devRef .tc main_v6) = _
  simp only [W13, hostOps1]
  after_results

/-- The scale row, from the hidden array and the padded scale. -/
theorem entry1_scale (c : Dev nD) :
    V13 m ρ c main_v22 = scaleRow (W12 m ρ c (Proc.devRef .tc main_v7)) (W12 m ρ c (Proc.devRef .tc main_v3)) := by
  show W13 m ρ c (Proc.devRef .tc main_v22) = _
  simp only [W13, hostOps1]
  after_results_simp <;> rfl

/-- The shift row, from the hidden array and the padded scale and shift. -/
theorem entry1_shift (c : Dev nD) :
    V13 m ρ c main_v26 = shiftRow (W12 m ρ c (Proc.devRef .tc main_v7)) (W12 m ρ c (Proc.devRef .tc main_v3))
      (W12 m ρ c (Proc.devRef .tc main_v4)) := by
  show W13 m ρ c (Proc.devRef .tc main_v26) = _
  simp only [W13, hostOps1]
  after_results_simp <;> rfl

end Cert.KernelIdeal.HostFold

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.Payload0.lean ====
/-
  The first kernel's arithmetic read at an entry, at the ideal values.

  From a block of 512 input rows, the (padded) 128 × 4096 weight matrix and the (padded) bias row, the body binarizes
  the weights, multiplies the rows by the transpose of the result and adds the bias row to every row: at (p, j) it
  leaves Σ_k x (p, k) · sgn w (j, k) + bias (0, j).
-/
import proofs.«175901_j47201690583460_2_alg».proof.Proof.Gen.KernelIdeal.Skeleton
import proofs.«175901_j47201690583460_2_alg».proof.Proof.Spec
import proofs.«175901_j47201690583460_2_alg».proof.Proof.LibMatmulRhsT
import proofs.«175901_j47201690583460_2_alg».proof.Proof.LibRowBroadcast
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.ValueIdx Cert.BinNet

/-- Comparing with the zero splat and selecting between the splats of 1 and −1 is the binarizer, entry by entry. -/
theorem binarize_apply {s : Shape} (v : FVec Ideal s .f32) (i : s.Idx) :
    select (cmpf .oge v (broadcast s (Scalar.ofBits (F := Ideal) .f32 0x00000000#32)))
      (broadcast s (Scalar.ofBits (F := Ideal) .f32 0x3F800000#32)) (broadcast s (Scalar.ofBits (F := Ideal) .f32 0xBF800000#32)) i
      = sgn (v i) := rfl

/-- The first kernel's stored value at (p, j): Σ_k x (p, k) · sgn w (j, k) + bias (0, j). -/
theorem firstLayer_apply (x0 : Vec Ideal S512x4096 .f32) (x1 : Vec Ideal S128x4096 .f32) (x2 : Vec Ideal S1x128 .f32)
    (p : Fin 512) (j : Fin 128) :
    k0_pay1 x0 x1 x2 (ix2 p j) = (∑ k : Fin 4096, x0 (ix2 p k) * sgn (x1 (ix2 j k))) + x2 (ix2 (0 : Fin 1) j) := by
  unfold k0_pay1
  rw [addf_apply, shapeCast_self, shapeCast_self, Cert.LibRowBroadcast.broadcastTo_1b_ab_apply _ _ p j (0 : Fin 1)]
  refine congrArg (· + x2 (ix2 (0 : Fin 1) j)) ?_
  refine (Cert.LibMatmulRhsT.matmul_transposedRhs_zero_apply 512 4096 128 (some .fp32) x0 _ p j).trans ?_
  refine Finset.sum_congr rfl fun k _ => ?_
  rw [binarize_apply]

end Cert.KernelIdeal.Entry

end
-- ==== Proof.Region0.lean ====
/-
  The first launch on whole arrays: what its output array holds when the launch is over.

  The launch has 64 grid points. Point t reads rows 512·t … 512·t + 511 of the input batch, the whole (padded) weight
  matrix and the whole (padded) bias row, and writes rows 512·t … 512·t + 511 of the [32768, 128] output. Since the body's
  value at an entry depends only on that entry's row of the batch, every point writes its block of ONE function of the
  three arrays — Σ_k x (r, k) · sgn w (j, k) + bias (0, j) at (r, j) — and the 64 blocks tile the output.
-/
import proofs.«175901_j47201690583460_2_alg».proof.Proof.Gen.KernelIdeal.Frame
import proofs.«175901_j47201690583460_2_alg».proof.Proof.Payload0
import proofs.«175901_j47201690583460_2_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.BinNet Cert.KernelIdeal.Entry

variable (V : (c : Dev nD) → (b : Ref sig .tc) → Buf (Elt Ideal) ((c : Thread nD τ).loc b))

theorem origin2 : (![0, 0] : Fin 2 → Nat) = fun _ => 0 := funext fun a => by fin_cases a <;> rfl

/-- The first layer on whole arrays: at (r, j), Σ_k x (r, k) · sgn w (j, k) + bias (0, j). -/
def firstLayer (X : Mat 32768 4096) (Wp : Mat 128 4096) (bp : Mat 1 128) : Mat 32768 128 :=
  fun i => (∑ k : Fin 4096, X (ix2 (i 0) k) * sgn (Wp (ix2 (i 1) k))) + bp (ix2 (0 : Fin 1) (i 1))

/-- The printed index maps over the grid: the batch and the output move one block of rows per point, the weights and
    the bias row stay. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the first layer of the arrays as the launch finds them. -/
theorem flushed0 (c : Dev nD) (t : Fin cfg0.N) :
    (dat0 V c).flushed 3 t = ((cfg0.win 3).blk t).view.read (Elt Ideal)
      (firstLayer (V c main_arg0) (V c main_v0) (V c main_v2)) := by
  show (cfg0.win 3).cut (grid0.coords t) ((dat0 V c).after 3 t) = _
  rw [after0_3]
  unfold out0_3
  rw [View.canon_unit_zero origin2]
  simp only [View.ld_unit_zero (S := S512x4096) origin2, View.ld_unit_zero (S := S128x4096) origin2,
    View.ld_unit_zero (S := S1x128) origin2]
  obtain ⟨e00, e01, e10, e11, e20, e21, e30, e31⟩ := blockIndex0 t
  funext y
  obtain ⟨p, j, rfl⟩ : ∃ (p : Fin 512) (j : Fin 128), y = ix2 p j := ⟨y 0, y 1, eq_ix2 y⟩
  show k0_pay1 (iblk0 V c 0 t) (iblk0 V c 1 t) (iblk0 V c 2 t) (ix2 p j)
    = firstLayer (V c main_arg0) (V c main_v0) (V c main_v2) (((cfg0.win 3).blk t).view.emb (ix2 p j))
  refine (firstLayer_apply (iblk0 V c 0 t) (iblk0 V c 1 t) (iblk0 V c 2 t) p j).trans ?_
  unfold firstLayer
  refine congrArg₂ (· + ·) (Finset.sum_congr rfl fun k _ => congrArg₂ (· * ·) ?_ (congrArg sgn ?_)) ?_
  · show V c main_arg0 (((cfg0.win 0).blk t).view.emb (ix2 p k))
      = V c main_arg0 (ix2 ((((cfg0.win 3).blk t).view.emb (ix2 p j)) 0) k)
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  · show V c main_v0 (((cfg0.win 1).blk t).view.emb (ix2 j k))
      = V c main_v0 (ix2 ((((cfg0.win 3).blk t).view.emb (ix2 p j)) 1) k)
    refine congrArg _ (funext fun a => Fin.ext ?_)
    match a with
    | ⟨0, _⟩ => show win0_1.index t (0 : Fin 2) * 128 + 1 * j.val = win0_3.index t (1 : Fin 2) * 128 + 1 * j.val; omega
    | ⟨1, _⟩ => show win0_1.index t (1 : Fin 2) * 4096 + 1 * k.val = k.val; omega
  · show V c main_v2 (((cfg0.win 2).blk t).view.emb (ix2 (0 : Fin 1) j))
      = V c main_v2 (ix2 (0 : Fin 1) ((((cfg0.win 3).blk t).view.emb (ix2 p j)) 1))
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * j.val = win0_3.index t (1 : Fin 2) * 128 + 1 * j.val; omega

/-- An index of the output is in point t's block iff each coordinate is in the block's range on its axis. -/
theorem mem_block0 (t : Fin cfg0.N) (i : S32768x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v7).slice (win0_3.rect t)).set ↔ _
  rw [View.set_slice_whole, Rect.mem_set_unit]
  exact Iff.rfl

/-- Row r of the output is in the block of point r / 512. -/
theorem covered0 (i : S32768x128.Idx) : ∃ t : Fin cfg0.N, (cfg0.win 3).flush t = true ∧ i ∈ ((cfg0.win 3).blk t).view.set := by
  have h0 : (i 0).val < 32768 := (i 0).isLt
  have h1 : (i 1).val < 128 := (i 1).isLt
  have hN : cfg0.N = 64 := N_0
  refine ⟨⟨(i 0).val / 512, by rw [hN]; omega⟩, flush0_3 _, ?_⟩
  rw [mem_block0]
  obtain ⟨-, -, -, -, -, -, e30, e31⟩ := blockIndex0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e30]; show (i 0).val / 512 * 512 ≤ (i 0).val ∧ (i 0).val < (i 0).val / 512 * 512 + 512; omega
  | ⟨1, _⟩ =>
    show win0_3.index _ (1 : Fin 2) * 128 ≤ (i 1).val ∧ (i 1).val < win0_3.index _ (1 : Fin 2) * 128 + 128
    rw [e31]; omega

/-- After the launch the output array holds the first layer of the arrays as the launch found them. -/
theorem final0 (c : Dev nD) :
    (dat0 V c).arrAt 3 cfg0.N = firstLayer (V c main_arg0) (V c main_v0) (V c main_v2) :=
  (dat0 V c).arrAt_eq_of_cover 3 (firstLayer (V c main_arg0) (V c main_v0) (V c main_v2)) (fun t _ => flushed0 V c t) covered0

end Cert.KernelIdeal.Blocks

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«175901_j47201690583460_2_alg».proof.Proof.LibKeepdims
import proofs.«175901_j47201690583460_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.Payload1.lean ====
/-
  The second kernel's arithmetic read at an entry, at the ideal values.

  From a block of 1024 hidden rows h, the scale and shift rows of the folded normalisation, the (padded) 1000 × 128
  second-layer weights and the bias row, the body forms z = h · scale + shift, binarizes z and the weights, multiplies
  the first by the transpose of the second, adds the bias row (the logits of the 1024 rows), and takes each row's
  log-softmax: the logit minus the row's maximum, minus the logarithm of the row's sum of exponentials of those
  differences.
-/
import proofs.«175901_j47201690583460_2_alg».proof.Proof.Gen.KernelIdeal.Skeleton
import proofs.«175901_j47201690583460_2_alg».proof.Proof.Spec
import proofs.«175901_j47201690583460_2_alg».proof.Proof.Payload0
import proofs.«175901_j47201690583460_2_alg».proof.Proof.LibMatmulRhsT
import proofs.«175901_j47201690583460_2_alg».proof.Proof.LibRowBroadcast
import proofs.«175901_j47201690583460_2_alg».proof.Proof.LibKeepdims
import proofs.«175901_j47201690583460_2_alg».proof.Proof.LibSoftmaxBlock
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.ValueIdx Cert.BinNet Cert.LibMaxReduce

/-- The logits the second kernel forms, at row p and class n. -/
theorem secondLayer_apply (x0 : Vec Ideal S1024x128 .f32) (sc sh : Vec Ideal S1x128 .f32) (w : Vec Ideal S1000x128 .f32)
    (bias : Vec Ideal S1x1000 .f32) (p : Fin 1024) (n : Fin 1000) :
    k1_pay2 x0 sc sh w bias (ix2 p n)
      = logits (fun j : Fin 128 => x0 (ix2 p j) * sc (ix2 (0 : Fin 1) j) + sh (ix2 (0 : Fin 1) j))
          (fun (n' : Fin 1000) (j : Fin 128) => sgn (w (ix2 n' j))) (fun n' : Fin 1000 => bias (ix2 (0 : Fin 1) n')) n := by
  unfold k1_pay2 logits
  simp only [shapeCast_self]
  rw [addf_apply, Cert.LibRowBroadcast.broadcastTo_1b_ab_apply _ _ p n (0 : Fin 1)]
  refine congrArg (· + bias (ix2 (0 : Fin 1) n)) ?_
  refine (Cert.LibMatmulRhsT.matmul_transposedRhs_zero_apply 1024 128 1000 none _ _ p n).trans ?_
  refine Finset.sum_congr rfl fun k _ => ?_
  rw [truncf_apply, truncf_apply, binarize_apply, binarize_apply, addf_apply, mulf_apply,
    Cert.LibRowBroadcast.broadcastTo_1b_ab_apply _ _ p k (0 : Fin 1),
    Cert.LibRowBroadcast.broadcastTo_1b_ab_apply _ _ p k (0 : Fin 1)]

/-- The logarithm of a column, entry by entry. -/
theorem log_apply {s : Shape} (v : FVec Ideal s .f32) (i : s.Idx) : log v i = Ideal.log (v i) := rfl

/-- The second kernel's stored value at (p, n): the log-softmax of row p's logits at class n. -/
theorem output_apply (x0 : Vec Ideal S1024x128 .f32) (sc sh : Vec Ideal S1x128 .f32) (w : Vec Ideal S1000x128 .f32)
    (bias : Vec Ideal S1x1000 .f32) (p : Fin 1024) (n : Fin 1000) :
    k1_pay1 (k1_pay4 x0 sc sh w bias) (k1_pay5 x0 sc sh w bias) (ix2 p n)
      = logSoftmaxBare (fun n' : Fin 1000 => k1_pay2 x0 sc sh w bias (ix2 p n')) n := by
  unfold k1_pay1 k1_pay4 k1_pay5 k1_pay3 logSoftmaxBare negInfW
  generalize k1_pay2 x0 sc sh w bias = S
  rw [subf_apply, subf_apply,
    Cert.LibSoftmaxBlock.rowMax_spread_apply S 0xFF800000#32 reduces_S1024x1000_S1024 (.inl rfl) rfl shapeCasts_S1024_S1024x1
      broadcasts_S1024x1_S1024x1000 p n,
    Cert.LibKeepdims.broadcastTo_a1_ab_apply _ broadcasts_S1024x1_S1024x1000 p n (0 : Fin 1), log_apply,
    Cert.LibKeepdims.shapeCast_a_a1_apply _ shapeCasts_S1024_S1024x1 p (0 : Fin 1),
    Cert.LibKeepdims.multiReduction_add_lastAxis_apply _ 0x00000000#32 reduces_S1024x1000_S1024 (.inl rfl) rfl p]
  refine congrArg (fun z : EReal => (S (ix2 p n) - foldMax (Ideal.ofBits .f32 0xFF800000#32) (fun k : Fin 1000 => S (ix2 p k))) - Ideal.log z) ?_
  refine Finset.sum_congr rfl fun k _ => ?_
  exact Cert.LibSoftmaxBlock.expBelowRowMax_apply S 0xFF800000#32 reduces_S1024x1000_S1024 (.inl rfl) rfl shapeCasts_S1024_S1024x1
    broadcasts_S1024x1_S1024x1000 p k

end Cert.KernelIdeal.Entry

end
-- ==== Proof.Region1.lean ====
/-
  The second launch on whole arrays: what its output array holds when the launch is over.

  The launch has 32 grid points. Point t reads rows 1024·t … 1024·t + 1023 of the hidden array, the whole (padded)
  second-layer weights, the bias row and the scale and shift rows, and writes rows 1024·t … 1024·t + 1023 of the
  [32768, 1000] output. A row of the result depends only on the same row of the hidden array, so every point writes its
  block of ONE function of the five arrays — the log-softmax of the row's logits — and the 32 blocks tile the output.
-/
import proofs.«175901_j47201690583460_2_alg».proof.Proof.Gen.KernelIdeal.Frame
import proofs.«175901_j47201690583460_2_alg».proof.Proof.Payload1
import proofs.«175901_j47201690583460_2_alg».proof.Proof.Layers
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.BinNet Cert.KernelIdeal.Entry

variable (V : (c : Dev nD) → (b : Ref sig .tc) → Buf (Elt Ideal) ((c : Thread nD τ).loc b))

theorem origin2' : (![0, 0] : Fin 2 → Nat) = fun _ => 0 := funext fun a => by fin_cases a <;> rfl

/-- The second layer on whole arrays: at (r, n), the log-softmax at class n of the logits of row r, formed from the
    hidden row scaled and shifted entry by entry. -/
def secondLayer (Hh : Mat 32768 128) (Wp : Mat 1000 128) (bias : Mat 1 1000) (sc sh : Mat 1 128) : Mat 32768 1000 :=
  fun i => logSoftmaxBare (logits (fun j : Fin 128 => Hh (ix2 (i 0) j) * sc (ix2 (0 : Fin 1) j) + sh (ix2 (0 : Fin 1) j))
    (fun (n' : Fin 1000) (j : Fin 128) => sgn (Wp (ix2 n' j))) (fun n' : Fin 1000 => bias (ix2 (0 : Fin 1) n'))) (i 1)

/-- The printed index maps over the grid: the hidden array and the output move one block of rows per point, the other
    four arrays stay. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the second layer of the arrays as the launch finds them. -/
theorem flushed1 (c : Dev nD) (t : Fin cfg1.N) :
    (dat1 V c).flushed 5 t = ((cfg1.win 5).blk t).view.read (Elt Ideal)
      (secondLayer (V c main_v7) (V c main_v5) (V c main_v6) (V c main_v22) (V c main_v26)) := by
  show (cfg1.win 5).cut (grid1.coords t) ((dat1 V c).after 5 t) = _
  rw [after1_5]
  unfold out1_5
  rw [View.canon_unit_zero origin2']
  simp only [View.ld_unit_zero (S := S1024x128) origin2', View.ld_unit_zero (S := S1000x128) origin2',
    View.ld_unit_zero (S := S1x1000) origin2', View.ld_unit_zero (S := S1x128) origin2']
  obtain ⟨e00, e01, e10, e11, e20, e21, e30, e31, e40, e41, e50, e51⟩ := blockIndex1 t
  funext y
  obtain ⟨p, n, rfl⟩ : ∃ (p : Fin 1024) (n : Fin 1000), y = ix2 p n := ⟨y 0, y 1, eq_ix2 y⟩
  show k1_pay1 (k1_pay4 (iblk1 V c 0 t) (iblk1 V c 3 t) (iblk1 V c 4 t) (iblk1 V c 1 t) (iblk1 V c 2 t))
      (k1_pay5 (iblk1 V c 0 t) (iblk1 V c 3 t) (iblk1 V c 4 t) (iblk1 V c 1 t) (iblk1 V c 2 t)) (ix2 p n)
    = secondLayer (V c main_v7) (V c main_v5) (V c main_v6) (V c main_v22) (V c main_v26) (((cfg1.win 5).blk t).view.emb (ix2 p n))
  refine (output_apply (iblk1 V c 0 t) (iblk1 V c 3 t) (iblk1 V c 4 t) (iblk1 V c 1 t) (iblk1 V c 2 t) p n).trans ?_
  unfold secondLayer
  refine congrArg₂ (logSoftmaxBare (N := 1000)) (funext fun n' => ?_) (Fin.ext ?_)
  · refine (secondLayer_apply (iblk1 V c 0 t) (iblk1 V c 3 t) (iblk1 V c 4 t) (iblk1 V c 1 t) (iblk1 V c 2 t) p n').trans ?_
    unfold logits
    refine congrArg₂ (· + ·) (Finset.sum_congr rfl fun j _ => congrArg₂ (· * ·)
      (congrArg sgn (congrArg₂ (· + ·) (congrArg₂ (· * ·) ?_ ?_) ?_)) (congrArg sgn ?_)) ?_
    · show V c main_v7 (((cfg1.win 0).blk t).view.emb (ix2 p j))
        = V c main_v7 (ix2 ((((cfg1.win 5).blk t).view.emb (ix2 p n)) 0) j)
      refine congrArg _ (funext fun a => Fin.ext ?_)
      match a with
      | ⟨0, _⟩ => show win1_0.index t (0 : Fin 2) * 1024 + 1 * p.val = win1_5.index t (0 : Fin 2) * 1024 + 1 * p.val; omega
      | ⟨1, _⟩ => show win1_0.index t (1 : Fin 2) * 128 + 1 * j.val = j.val; omega
    · show V c main_v22 (((cfg1.win 3).blk t).view.emb (ix2 (0 : Fin 1) j)) = V c main_v22 (ix2 (0 : Fin 1) j)
      refine congrArg _ (funext fun a => Fin.ext ?_)
      match a with
      | ⟨0, _⟩ => show win1_3.index t (0 : Fin 2) * 1 + 1 * 0 = 0; omega
      | ⟨1, _⟩ => show win1_3.index t (1 : Fin 2) * 128 + 1 * j.val = j.val; omega
    · show V c main_v26 (((cfg1.win 4).blk t).view.emb (ix2 (0 : Fin 1) j)) = V c main_v26 (ix2 (0 : Fin 1) j)
      refine congrArg _ (funext fun a => Fin.ext ?_)
      match a with
      | ⟨0, _⟩ => show win1_4.index t (0 : Fin 2) * 1 + 1 * 0 = 0; omega
      | ⟨1, _⟩ => show win1_4.index t (1 : Fin 2) * 128 + 1 * j.val = j.val; omega
    · show V c main_v5 (((cfg1.win 1).blk t).view.emb (ix2 n' j)) = V c main_v5 (ix2 n' j)
      refine congrArg _ (funext fun a => Fin.ext ?_)
      match a with
      | ⟨0, _⟩ => show win1_1.index t (0 : Fin 2) * 1000 + 1 * n'.val = n'.val; omega
      | ⟨1, _⟩ => show win1_1.index t (1 : Fin 2) * 128 + 1 * j.val = j.val; omega
    · show V c main_v6 (((cfg1.win 2).blk t).view.emb (ix2 (0 : Fin 1) n')) = V c main_v6 (ix2 (0 : Fin 1) n')
      refine congrArg _ (funext fun a => Fin.ext ?_)
      match a with
      | ⟨0, _⟩ => show win1_2.index t (0 : Fin 2) * 1 + 1 * 0 = 0; omega
      | ⟨1, _⟩ => show win1_2.index t (1 : Fin 2) * 1000 + 1 * n'.val = n'.val; omega
  · show n.val = win1_5.index t (1 : Fin 2) * 1000 + 1 * n.val
    omega

/-- An index of the output is in point t's block iff each coordinate is in the block's range on its axis. -/
theorem mem_block1 (t : Fin cfg1.N) (i : S32768x1000.Idx) :
    i ∈ ((cfg1.win 5).blk t).view.set ↔ ∀ a : Fin 2, win1_5.index t a * S1024x1000.size a ≤ (i a).val
      ∧ (i a).val < win1_5.index t a * S1024x1000.size a + S1024x1000.size a := by
  show i ∈ ((View.whole main_v27).slice (win1_5.rect t)).set ↔ _
  rw [View.set_slice_whole, Rect.mem_set_unit]
  exact Iff.rfl

/-- Row r of the output is in the block of point r / 1024. -/
theorem covered1 (i : S32768x1000.Idx) : ∃ t : Fin cfg1.N, (cfg1.win 5).flush t = true ∧ i ∈ ((cfg1.win 5).blk t).view.set := by
  have h0 : (i 0).val < 32768 := (i 0).isLt
  have h1 : (i 1).val < 1000 := (i 1).isLt
  have hN : cfg1.N = 32 := N_1
  refine ⟨⟨(i 0).val / 1024, by rw [hN]; omega⟩, flush1_5 _, ?_⟩
  rw [mem_block1]
  obtain ⟨-, -, -, -, -, -, -, -, -, -, e50, e51⟩ := blockIndex1 ⟨(i 0).val / 1024, by rw [hN]; omega⟩
  intro a
  match a with
  | ⟨0, _⟩ =>
    show win1_5.index _ (0 : Fin 2) * 1024 ≤ (i 0).val ∧ (i 0).val < win1_5.index _ (0 : Fin 2) * 1024 + 1024
    rw [e50]; show (i 0).val / 1024 * 1024 ≤ (i 0).val ∧ (i 0).val < (i 0).val / 1024 * 1024 + 1024; omega
  | ⟨1, _⟩ =>
    show win1_5.index _ (1 : Fin 2) * 1000 ≤ (i 1).val ∧ (i 1).val < win1_5.index _ (1 : Fin 2) * 1000 + 1000
    rw [e51]; omega

/-- After the launch the output array holds the second layer of the arrays as the launch found them. -/
theorem final1 (c : Dev nD) :
    (dat1 V c).arrAt 5 cfg1.N = secondLayer (V c main_v7) (V c main_v5) (V c main_v6) (V c main_v22) (V c main_v26) :=
  (dat1 V c).arrAt_eq_of_cover 5 (secondLayer (V c main_v7) (V c main_v5) (V c main_v6) (V c main_v22) (V c main_v26))
    (fun t _ => flushed1 V c t) covered1

end Cert.KernelIdeal.Blocks

end
-- ==== Proof.KernelSpec.lean ====
/-
  The kernel program's two launches and the host operations between them, composed on whole arrays, are the padded
  network of the specification.

  With the padded operands written out, the first launch's output at (b, j) is the padded hidden pre-activation; the
  host's scale and shift rows at column j are γ_j · r_j and β_j − (μ_j · γ_j) · r_j over that array's column j; so the
  second launch's normalised entry is the folded normalisation, its binarized weights the padded second-layer weights,
  and its result the bare log-softmax of the padded logits.
-/
import proofs.«175901_j47201690583460_2_alg».proof.Proof.Region0
import proofs.«175901_j47201690583460_2_alg».proof.Proof.Region1
import proofs.«175901_j47201690583460_2_alg».proof.Proof.HostStats
import proofs.«175901_j47201690583460_2_alg».proof.Proof.PadRead
import proofs.«175901_j47201690583460_2_alg».proof.Proof.Layers

noncomputable section

namespace Cert.KernelIdeal.Composed

open Cert.KernelIdeal Cert.KernelIdeal.Blocks Cert.KernelIdeal.HostStage Cert.KernelIdeal.PadRead Cert.BinNet
open Idealize.ShloMosaic Idealize.ShloMosaic.ValueIdx

variable (x : FVec Ideal S32768x4096 .f32) (W1 : FVec Ideal S100x4096 .f32) (b1 γ β : FVec Ideal S100 .f32)
  (W2 : FVec Ideal S1000x100 .f32) (b2 : FVec Ideal S1000 .f32)

/-- The first launch's output on the padded operands. -/
def hiddenArray : FVec Ideal S32768x128 .f32 :=
  firstLayer x (pad S128x4096 ![0, 0] ![28, 0] ![0, 0] W1 padZero Facts₀.pads_S100x4096_S128x4096_0280_000 Facts₀.h_S_)
    (shapeCast S1x128 (pad S128 ![0] ![28] ![0] b1 padZero Facts₀.pads_S100_S128_0280 Facts₀.h_S_) Facts₀.shapeCasts_S128_S1x128)

/-- It is the padded hidden pre-activation. -/
theorem hiddenArray_apply (b : Fin 32768) (j : Fin 128) : hiddenArray x W1 b1 (ix2 b j) = hiddenPadded x W1 b1 b j := by
  unfold hiddenArray firstLayer hiddenPadded
  show (∑ k : Fin 4096, x (ix2 b k) * sgn (pad S128x4096 ![0, 0] ![28, 0] ![0, 0] W1 padZero _ _ (ix2 j k)))
      + shapeCast S1x128 (pad S128 ![0] ![28] ![0] b1 padZero _ _) _ (ix2 (0 : Fin 1) j) = _
  rw [row128_apply, padVec_apply]
  refine congrArg (· + padded (fun j' : Fin 100 => b1 (ix1 j')) j) (Finset.sum_congr rfl fun k _ => ?_)
  rw [padRows_apply]

/-- The composition of the two launches and the host operations between them is the padded network. -/
theorem composed_eq_paddedResult :
    secondLayer (hiddenArray x W1 b1)
        (pad S1000x128 ![0, 0] ![0, 28] ![0, 0] W2 padZero Facts₀.pads_S1000x100_S1000x128_000_0280 Facts₀.h_S_)
        (shapeCast S1x1000 b2 Facts₀.shapeCasts_S1000_S1x1000)
        (scaleRow (hiddenArray x W1 b1) (pad S128 ![0] ![28] ![0] γ padZero Facts₀.pads_S100_S128_0280 Facts₀.h_S_))
        (shiftRow (hiddenArray x W1 b1) (pad S128 ![0] ![28] ![0] γ padZero Facts₀.pads_S100_S128_0280 Facts₀.h_S_)
          (pad S128 ![0] ![28] ![0] β padZero Facts₀.pads_S100_S128_0280 Facts₀.h_S_))
      = paddedResult x W1 b1 γ β W2 b2 := by
  funext i
  obtain ⟨b, n, rfl⟩ : ∃ (b : Fin 32768) (n : Fin 1000), i = ix2 b n := ⟨i 0, i 1, eq_ix2 i⟩
  unfold secondLayer paddedResult foldedNet
  have hz : (fun j : Fin 128 => hiddenArray x W1 b1 (ix2 b j)
        * scaleRow (hiddenArray x W1 b1) (pad S128 ![0] ![28] ![0] γ padZero Facts₀.pads_S100_S128_0280 Facts₀.h_S_) (ix2 (0 : Fin 1) j)
        + shiftRow (hiddenArray x W1 b1) (pad S128 ![0] ![28] ![0] γ padZero Facts₀.pads_S100_S128_0280 Facts₀.h_S_)
            (pad S128 ![0] ![28] ![0] β padZero Facts₀.pads_S100_S128_0280 Facts₀.h_S_) (ix2 (0 : Fin 1) j))
      = fun j : Fin 128 => foldedNorm (hiddenPadded x W1 b1) (padded fun j' => γ (ix1 j')) (padded fun j' => β (ix1 j')) b j := by
    funext j
    rw [scaleRow_apply, shiftRow_apply, padVec_apply, padVec_apply]
    simp only [hiddenArray_apply]
    rfl
  have hw : (fun (n' : Fin 1000) (j : Fin 128) =>
        sgn (pad S1000x128 ![0, 0] ![0, 28] ![0, 0] W2 padZero Facts₀.pads_S1000x100_S1000x128_000_0280 Facts₀.h_S_ (ix2 n' j)))
      = outWeightsPadded W2 := by
    funext n' j
    rw [padCols_apply]
    rfl
  have hc : (fun n' : Fin 1000 => shapeCast S1x1000 b2 Facts₀.shapeCasts_S1000_S1x1000 (ix2 (0 : Fin 1) n'))
      = fun n' : Fin 1000 => b2 (ix1 n') := funext fun n' => row1000_apply b2 n'
  show logSoftmaxBare (logits (fun j : Fin 128 => hiddenArray x W1 b1 (ix2 b j) * _ + _) _ _) n = _
  rw [hz, hw, hc]

end Cert.KernelIdeal.Composed

end
-- ==== Proof.KernelValue.lean ====
/-
  The idealized kernel's run with its result array as a function of the argument arrays.

  The result array ends at what the second launch's write-backs leave: the second layer of the arrays that launch
  finds — the hidden array the first launch left, the padded second-layer weights, the second bias as a row, and the
  host's scale and shift rows. Each of those is a function of the argument arrays, and their composition is the padded
  network of the specification.
-/
import proofs.«175901_j47201690583460_2_alg».proof.Proof.KernelRun
import proofs.«175901_j47201690583460_2_alg».proof.Proof.KernelHost
import proofs.«175901_j47201690583460_2_alg».proof.Proof.KernelSpec

set_option maxRecDepth 16384

noncomputable section

namespace Cert.KernelIdeal.Result

open Cert.KernelIdeal Cert.KernelIdeal.Gen Cert.KernelIdeal.Blocks Cert.KernelIdeal.HostFold Cert.KernelIdeal.Composed
open Cert.KernelIdeal.HostStage Cert.KernelIdeal.PadRead Cert.BinNet
open Idealize.ShloMosaic Idealize.ShloMosaic.TcCoe Idealize.SL.Sem

variable (m : (ℓ : Loc nD τ sig) → Buf (Elt Ideal) ℓ) (ρ : Dev nD → PrngReg)

/-- The hidden array the first launch leaves: the first layer of the batch and the padded weights and bias. -/
theorem hidden_eq (c : Dev nD) :
    W12 m ρ c (Proc.devRef .tc main_v7)
      = hiddenArray (m ((c : Thread nD τ).loc main_arg0)) (m ((c : Thread nD τ).loc main_arg1)) (m ((c : Thread nD τ).loc main_arg2)) := by
  refine (W12_arr m ρ c 3).trans ((final0 (V11 m ρ) c).trans ?_)
  rw [entry0_batch, entry0_weights, entry0_bias]
  rfl

/-- The result array after the run is the padded network of the argument arrays. -/
theorem result_eq (c : Dev nD) :
    W14 m ρ c (Proc.devRef .tc main_v27)
      = paddedResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W14_arr m ρ c 5).trans ((final1 (V13 m ρ) c).trans ?_)
  rw [entry1_hidden, entry1_outWeights, entry1_outBias, entry1_scale, entry1_shift,
    W12_of_ne m ρ c main_v5 (by decide), W12_of_ne m ρ c main_v6 (by decide), W12_of_ne m ρ c main_v3 (by decide),
    W12_of_ne m ρ c main_v4 (by decide), entry0_outWeights, entry0_outBias, entry0_scale, entry0_shift, hidden_eq]
  exact composed_eq_paddedResult _ _ _ _ _ _ _

/-- Every weakly fair execution of the idealized kernel terminates, nothing faulting, with the result array at the
    padded network of the argument arrays and the argument arrays unchanged. -/
theorem run : θ_run defs (onTc (τ := τ) (main (F := Ideal))) ⟨m, fun _ => 0, ρ⟩ (fun r => ∀ c : Dev nD,
      r.2.mem ((c.tc : Thread nD τ).loc main_v27)
        = paddedResult (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.RunValue.run_result m ρ)

end Cert.KernelIdeal.Result

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.RefValue.lean ====
/-
  The run of the reference program, with its result read as the generated stage function.

  @main is a straight line of eighty-two host operations. The buffer contents after such a line are a fold of the
  operations' results over the launch contents, and the fold over a line set end to end from stretches is the fold over
  each stretch in turn, from the contents the stretch before leaves. The line is cut after the operation that writes the
  hidden array (`main_v8`: three later operations read it) and after the one that writes the logits (`main_v46`: read
  twice), so that each stretch is read from ARBITRARY contents of which only the cut buffer's value is known: the shared
  array is one value in every comparison, not a copy of its defining term per reader.

  The operations of the called functions are stated in the generated list over typed references, which move contents
  between a buffer's type and its value's type along a proof that the two are equal. At a literal buffer that proof is
  of `T = T` and the move is the identity, so each such operation IS the plain operation at the same buffers; the
  stretches below are spelt with the plain operations, and `ops_split` is that identification, operation by operation.
-/
import proofs.«175901_j47201690583460_2_alg».proof.Proof.RefRunP
import proofs.«175901_j47201690583460_2_alg».proof.Proof.RefStagesP
import proofs.«175901_j47201690583460_2_alg».proof.Proof.LibAfterAppend

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The three stretches

@main's operations in order, the called functions' operations spelt as the plain operations at their buffers. -/

/-- The first fourteen operations: up to the hidden array `main_v8`. -/
abbrev opsA : List (HloOp τ sig (Elt F)) :=
  [ nullary main_cst (constant S_ .f32 0x00000000#32),
    unary main_cst main_v0 (broadcastInDim S100x4096 ![] bcast_S_S100x4096 : (⟨S_, .f32⟩ : BufTy).Contents (Elt F) → (⟨S100x4096, .f32⟩ : BufTy).Contents (Elt F)),
    binary main_arg1 main_v0 main_v1 (cmpf .oge : (⟨S100x4096, .f32⟩ : BufTy).Contents (Elt F) → (⟨S100x4096, .f32⟩ : BufTy).Contents (Elt F) → (⟨S100x4096, .i1⟩ : BufTy).Contents (Elt F)),
    nullary main_cst_0 (constant S_ .f32 0x3F800000#32),
    nullary main_cst_1 (constant S_ .f32 0xBF800000#32),
    unary main_cst_0 main_call0_v0 ((broadcastInDim S100x4096 ![] bcast_S_S100x4096) : (⟨S_, .f32⟩ : BufTy).Contents (Elt F) → (⟨S100x4096, .f32⟩ : BufTy).Contents (Elt F)),
    unary main_cst_1 main_call0_v1 ((broadcastInDim S100x4096 ![] bcast_S_S100x4096) : (⟨S_, .f32⟩ : BufTy).Contents (Elt F) → (⟨S100x4096, .f32⟩ : BufTy).Contents (Elt F)),
    ternary main_v1 main_call0_v0 main_call0_v1 main_v2 (select : (⟨S100x4096, .i1⟩ : BufTy).Contents (Elt F) → (⟨S100x4096, .f32⟩ : BufTy).Contents (Elt F) → (⟨S100x4096, .f32⟩ : BufTy).Contents (Elt F) → (⟨S100x4096, .f32⟩ : BufTy).Contents (Elt F)),
    unary main_v2 main_v3 (id : (⟨S100x4096, .f32⟩ : BufTy).Contents (Elt F) → (⟨S100x4096, .f32⟩ : BufTy).Contents (Elt F)),
    unary main_v3 main_v4 ((transpose S4096x100 [1, 0] · transposes_S100x4096_S4096x100_1_0) : (⟨S100x4096, .f32⟩ : BufTy).Contents (Elt F) → (⟨S4096x100, .f32⟩ : BufTy).Contents (Elt F)),
    binary main_arg0 main_v4 main_v5 ((fun l r => Host.dotGeneral dot_S32768x4096_S4096x100_S32768x100_1_0_0_1_n_n none l r) : (⟨S32768x4096, .f32⟩ : BufTy).Contents (Elt F) → (⟨S4096x100, .f32⟩ : BufTy).Contents (Elt F) → (⟨S32768x100, .f32⟩ : BufTy).Contents (Elt F)),
    unary main_arg2 main_v6 (broadcastInDim S1x100 ![1] bcast_S100_S1x100_1 : (⟨S100, .f32⟩ : BufTy).Contents (Elt F) → (⟨S1x100, .f32⟩ : BufTy).Contents (Elt F)),
    unary main_v6 main_v7 (broadcastInDim S32768x100 ![0, 1] bcast_S1x100_S32768x100_0_1 : (⟨S1x100, .f32⟩ : BufTy).Contents (Elt F) → (⟨S32768x100, .f32⟩ : BufTy).Contents (Elt F)),
    binary main_v5 main_v7 main_v8 (addf : (⟨S32768x100, .f32⟩ : BufTy).Contents (Elt F) → (⟨S32768x100, .f32⟩ : BufTy).Contents (Elt F) → (⟨S32768x100, .f32⟩ : BufTy).Contents (Elt F)) ]

/-- The next fifty-three: from the hidden array to the logits `main_v46`. -/
abbrev opsB : List (HloOp τ sig (Elt F)) :=
  [ nullary main_cst_2 (constant S_ .f32 0x00000000#32),
    binary main_v8 main_cst_2 main_v9 ((fun x v => Host.reduceAdd x v reducesTo_S32768x100_S100_d0 h_S_) : (⟨S32768x100, .f32⟩ : BufTy).Contents (Elt F) → (⟨S_, .f32⟩ : BufTy).Contents (Elt F) → (⟨S100, .f32⟩ : BufTy).Contents (Elt F)),
    nullary main_cst_3 (constant S_ .f32 0x47000000#32),
    unary main_cst_3 main_v10 (broadcastInDim S100 ![] bcast_S_S100 : (⟨S_, .f32⟩ : BufTy).Contents (Elt F) → (⟨S100, .f32⟩ : BufTy).Contents (Elt F)),
    binary main_v9 main_v10 main_v11 (Host.divf : (⟨S100, .f32⟩ : BufTy).Contents (Elt F) → (⟨S100, .f32⟩ : BufTy).Contents (Elt F) → (⟨S100, .f32⟩ : BufTy).Contents (Elt F)),
    unary main_v11 main_v12 (broadcastInDim S1x100 ![1] bcast_S100_S1x100_1 : (⟨S100, .f32⟩ : BufTy).Contents (Elt F) → (⟨S1x100, .f32⟩ : BufTy).Contents (Elt F)),
    unary main_v12 main_v13 (broadcastInDim S32768x100 ![0, 1] bcast_S1x100_S32768x100_0_1 : (⟨S1x100, .f32⟩ : BufTy).Contents (Elt F) → (⟨S32768x100, .f32⟩ : BufTy).Contents (Elt F)),
    binary main_v8 main_v13 main_v14 (subf : (⟨S32768x100, .f32⟩ : BufTy).Contents (Elt F) → (⟨S32768x100, .f32⟩ : BufTy).Contents (Elt F) → (⟨S32768x100, .f32⟩ : BufTy).Contents (Elt F)),
    binary main_v14 main_v14 main_v15 (mulf : (⟨S32768x100, .f32⟩ : BufTy).Contents (Elt F) → (⟨S32768x100, .f32⟩ : BufTy).Contents (Elt F) → (⟨S32768x100, .f32⟩ : BufTy).Contents (Elt F)),
    nullary main_cst_4 (constant S_ .f32 0x00000000#32),
    binary main_v15 main_cst_4 main_v16 ((fun x v => Host.reduceAdd x v reducesTo_S32768x100_S100_d0 h_S_) : (⟨S32768x100, .f32⟩ : BufTy).Contents (Elt F) → (⟨S_, .f32⟩ : BufTy).Contents (Elt F) → (⟨S100, .f32⟩ : BufTy).Contents (Elt F)),
    nullary main_cst_5 (constant S_ .f32 0x47000000#32),
    unary main_cst_5 main_v17 (broadcastInDim S100 ![] bcast_S_S100 : (⟨S_, .f32⟩ : BufTy).Contents (Elt F) → (⟨S100, .f32⟩ : BufTy).Contents (Elt F)),
    binary main_v16 main_v17 main_v18 (Host.divf : (⟨S100, .f32⟩ : BufTy).Contents (Elt F) → (⟨S100, .f32⟩ : BufTy).Contents (Elt F) → (⟨S100, .f32⟩ : BufTy).Contents (Elt F)),
    unary main_v11 main_v19 (broadcastInDim S1x100 ![1] bcast_S100_S1x100_1 : (⟨S100, .f32⟩ : BufTy).Contents (Elt F) → (⟨S1x100, .f32⟩ : BufTy).Contents (Elt F)),
    unary main_v19 main_v20 (broadcastInDim S32768x100 ![0, 1] bcast_S1x100_S32768x100_0_1 : (⟨S1x100, .f32⟩ : BufTy).Contents (Elt F) → (⟨S32768x100, .f32⟩ : BufTy).Contents (Elt F)),
    binary main_v8 main_v20 main_v21 (subf : (⟨S32768x100, .f32⟩ : BufTy).Contents (Elt F) → (⟨S32768x100, .f32⟩ : BufTy).Contents (Elt F) → (⟨S32768x100, .f32⟩ : BufTy).Contents (Elt F)),
    nullary main_cst_6 (constant S_ .f32 0x38D1B717#32),
    unary main_cst_6 main_v22 (broadcastInDim S100 ![] bcast_S_S100 : (⟨S_, .f32⟩ : BufTy).Contents (Elt F) → (⟨S100, .f32⟩ : BufTy).Contents (Elt F)),
    binary main_v18 main_v22 main_v23 (addf : (⟨S100, .f32⟩ : BufTy).Contents (Elt F) → (⟨S100, .f32⟩ : BufTy).Contents (Elt F) → (⟨S100, .f32⟩ : BufTy).Contents (Elt F)),
    unary main_v23 main_v24 (Host.rsqrt : (⟨S100, .f32⟩ : BufTy).Contents (Elt F) → (⟨S100, .f32⟩ : BufTy).Contents (Elt F)),
    unary main_v24 main_v25 (broadcastInDim S1x100 ![1] bcast_S100_S1x100_1 : (⟨S100, .f32⟩ : BufTy).Contents (Elt F) → (⟨S1x100, .f32⟩ : BufTy).Contents (Elt F)),
    unary main_v25 main_v26 (broadcastInDim S32768x100 ![0, 1] bcast_S1x100_S32768x100_0_1 : (⟨S1x100, .f32⟩ : BufTy).Contents (Elt F) → (⟨S32768x100, .f32⟩ : BufTy).Contents (Elt F)),
    binary main_v21 main_v26 main_v27 (mulf : (⟨S32768x100, .f32⟩ : BufTy).Contents (Elt F) → (⟨S32768x100, .f32⟩ : BufTy).Contents (Elt F) → (⟨S32768x100, .f32⟩ : BufTy).Contents (Elt F)),
    unary main_arg3 main_v28 (broadcastInDim S1x100 ![1] bcast_S100_S1x100_1 : (⟨S100, .f32⟩ : BufTy).Contents (Elt F) → (⟨S1x100, .f32⟩ : BufTy).Contents (Elt F)),
    unary main_v28 main_v29 (broadcastInDim S32768x100 ![0, 1] bcast_S1x100_S32768x100_0_1 : (⟨S1x100, .f32⟩ : BufTy).Contents (Elt F) → (⟨S32768x100, .f32⟩ : BufTy).Contents (Elt F)),
    binary main_v27 main_v29 main_v30 (mulf : (⟨S32768x100, .f32⟩ : BufTy).Contents (Elt F) → (⟨S32768x100, .f32⟩ : BufTy).Contents (Elt F) → (⟨S32768x100, .f32⟩ : BufTy).Contents (Elt F)),
    unary main_arg4 main_v31 (broadcastInDim S1x100 ![1] bcast_S100_S1x100_1 : (⟨S100, .f32⟩ : BufTy).Contents (Elt F) → (⟨S1x100, .f32⟩ : BufTy).Contents (Elt F)),
    unary main_v31 main_v32 (broadcastInDim S32768x100 ![0, 1] bcast_S1x100_S32768x100_0_1 : (⟨S1x100, .f32⟩ : BufTy).Contents (Elt F) → (⟨S32768x100, .f32⟩ : BufTy).Contents (Elt F)),
    binary main_v30 main_v32 main_v33 (addf : (⟨S32768x100, .f32⟩ : BufTy).Contents (Elt F) → (⟨S32768x100, .f32⟩ : BufTy).Contents (Elt F) → (⟨S32768x100, .f32⟩ : BufTy).Contents (Elt F)),
    nullary main_cst_7 (constant S_ .f32 0x00000000#32),
    unary main_cst_7 main_v34 (broadcastInDim S32768x100 ![] bcast_S_S32768x100 : (⟨S_, .f32⟩ : BufTy).Contents (Elt F) → (⟨S32768x100, .f32⟩ : BufTy).Contents (Elt F)),
    binary main_v33 main_v34 main_v35 (cmpf .oge : (⟨S32768x100, .f32⟩ : BufTy).Contents (Elt F) → (⟨S32768x100, .f32⟩ : BufTy).Contents (Elt F) → (⟨S32768x100, .i1⟩ : BufTy).Contents (Elt F)),
    nullary main_cst_8 (constant S_ .f32 0x3F800000#32),
    nullary main_cst_9 (constant S_ .f32 0xBF800000#32),
    unary main_cst_8 main_call1_v0 ((broadcastInDim S32768x100 ![] bcast_S_S32768x100) : (⟨S_, .f32⟩ : BufTy).Contents (Elt F) → (⟨S32768x100, .f32⟩ : BufTy).Contents (Elt F)),
    unary main_cst_9 main_call1_v1 ((broadcastInDim S32768x100 ![] bcast_S_S32768x100) : (⟨S_, .f32⟩ : BufTy).Contents (Elt F) → (⟨S32768x100, .f32⟩ : BufTy).Contents (Elt F)),
    ternary main_v35 main_call1_v0 main_call1_v1 main_v36 (select : (⟨S32768x100, .i1⟩ : BufTy).Contents (Elt F) → (⟨S32768x100, .f32⟩ : BufTy).Contents (Elt F) → (⟨S32768x100, .f32⟩ : BufTy).Contents (Elt F) → (⟨S32768x100, .f32⟩ : BufTy).Contents (Elt F)),
    unary main_v36 main_v37 (id : (⟨S32768x100, .f32⟩ : BufTy).Contents (Elt F) → (⟨S32768x100, .f32⟩ : BufTy).Contents (Elt F)),
    nullary main_cst_10 (constant S_ .f32 0x00000000#32),
    unary main_cst_10 main_v38 (broadcastInDim S1000x100 ![] bcast_S_S1000x100 : (⟨S_, .f32⟩ : BufTy).Contents (Elt F) → (⟨S1000x100, .f32⟩ : BufTy).Contents (Elt F)),
    binary main_arg5 main_v38 main_v39 (cmpf .oge : (⟨S1000x100, .f32⟩ : BufTy).Contents (Elt F) → (⟨S1000x100, .f32⟩ : BufTy).Contents (Elt F) → (⟨S1000x100, .i1⟩ : BufTy).Contents (Elt F)),
    nullary main_cst_11 (constant S_ .f32 0x3F800000#32),
    nullary main_cst_12 (constant S_ .f32 0xBF800000#32),
    unary main_cst_11 main_call2_v0 ((broadcastInDim S1000x100 ![] bcast_S_S1000x100) : (⟨S_, .f32⟩ : BufTy).Contents (Elt F) → (⟨S1000x100, .f32⟩ : BufTy).Contents (Elt F)),
    unary main_cst_12 main_call2_v1 ((broadcastInDim S1000x100 ![] bcast_S_S1000x100) : (⟨S_, .f32⟩ : BufTy).Contents (Elt F) → (⟨S1000x100, .f32⟩ : BufTy).Contents (Elt F)),
    ternary main_v39 main_call2_v0 main_call2_v1 main_v40 (select : (⟨S1000x100, .i1⟩ : BufTy).Contents (Elt F) → (⟨S1000x100, .f32⟩ : BufTy).Contents (Elt F) → (⟨S1000x100, .f32⟩ : BufTy).Contents (Elt F) → (⟨S1000x100, .f32⟩ : BufTy).Contents (Elt F)),
    unary main_v40 main_v41 (id : (⟨S1000x100, .f32⟩ : BufTy).Contents (Elt F) → (⟨S1000x100, .f32⟩ : BufTy).Contents (Elt F)),
    unary main_v41 main_v42 ((transpose S100x1000 [1, 0] · transposes_S1000x100_S100x1000_1_0) : (⟨S1000x100, .f32⟩ : BufTy).Contents (Elt F) → (⟨S100x1000, .f32⟩ : BufTy).Contents (Elt F)),
    binary main_v37 main_v42 main_v43 ((fun l r => Host.dotGeneral dot_S32768x100_S100x1000_S32768x1000_1_0_0_1_n_n none l r) : (⟨S32768x100, .f32⟩ : BufTy).Contents (Elt F) → (⟨S100x1000, .f32⟩ : BufTy).Contents (Elt F) → (⟨S32768x1000, .f32⟩ : BufTy).Contents (Elt F)),
    unary main_arg6 main_v44 (broadcastInDim S1x1000 ![1] bcast_S1000_S1x1000_1 : (⟨S1000, .f32⟩ : BufTy).Contents (Elt F) → (⟨S1x1000, .f32⟩ : BufTy).Contents (Elt F)),
    unary main_v44 main_v45 (broadcastInDim S32768x1000 ![0, 1] bcast_S1x1000_S32768x1000_0_1 : (⟨S1x1000, .f32⟩ : BufTy).Contents (Elt F) → (⟨S32768x1000, .f32⟩ : BufTy).Contents (Elt F)),
    binary main_v43 main_v45 main_v46 (addf : (⟨S32768x1000, .f32⟩ : BufTy).Contents (Elt F) → (⟨S32768x1000, .f32⟩ : BufTy).Contents (Elt F) → (⟨S32768x1000, .f32⟩ : BufTy).Contents (Elt F)) ]

/-- The last fifteen: the log-softmax of the logits, `main_v47`. -/
abbrev opsC : List (HloOp τ sig (Elt F)) :=
  [ nullary main_call3_cst (constant S_ .f32 0xFF800000#32),
    binary main_v46 main_call3_cst main_call3_v0 ((fun x v => Host.reduce FloatOps.maximumf x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    nullary main_call3_cst_0 (constant S_ .f32 0xFF800000#32),
    unary main_call3_cst_0 main_call3_v1 ((broadcastInDim S32768 ![] bcast_S_S32768) : (⟨S_, .f32⟩ : BufTy).Contents (Elt F) → (⟨S32768, .f32⟩ : BufTy).Contents (Elt F)),
    binary main_call3_v1 main_call3_v0 main_call3_v2 (maximumf : (⟨S32768, .f32⟩ : BufTy).Contents (Elt F) → (⟨S32768, .f32⟩ : BufTy).Contents (Elt F) → (⟨S32768, .f32⟩ : BufTy).Contents (Elt F)),
    unary main_call3_v2 main_call3_v3 ((broadcastInDim S32768x1 ![0] bcast_S32768_S32768x1_0) : (⟨S32768, .f32⟩ : BufTy).Contents (Elt F) → (⟨S32768x1, .f32⟩ : BufTy).Contents (Elt F)),
    unary main_call3_v3 main_call3_v4 ((broadcastInDim S32768x1000 ![0, 1] bcast_S32768x1_S32768x1000_0_1) : (⟨S32768x1, .f32⟩ : BufTy).Contents (Elt F) → (⟨S32768x1000, .f32⟩ : BufTy).Contents (Elt F)),
    binary main_v46 main_call3_v4 main_call3_v5 (subf : (⟨S32768x1000, .f32⟩ : BufTy).Contents (Elt F) → (⟨S32768x1000, .f32⟩ : BufTy).Contents (Elt F) → (⟨S32768x1000, .f32⟩ : BufTy).Contents (Elt F)),
    unary main_call3_v5 main_call3_v6 (Host.exp : (⟨S32768x1000, .f32⟩ : BufTy).Contents (Elt F) → (⟨S32768x1000, .f32⟩ : BufTy).Contents (Elt F)),
    nullary main_call3_cst_1 (constant S_ .f32 0x00000000#32),
    binary main_call3_v6 main_call3_cst_1 main_call3_v7 ((fun x v => Host.reduceAdd x v reducesTo_S32768x1000_S32768_d1 h_S_) : (⟨S32768x1000, .f32⟩ : BufTy).Contents (Elt F) → (⟨S_, .f32⟩ : BufTy).Contents (Elt F) → (⟨S32768, .f32⟩ : BufTy).Contents (Elt F)),
    unary main_call3_v7 main_call3_v8 ((broadcastInDim S32768x1 ![0] bcast_S32768_S32768x1_0) : (⟨S32768, .f32⟩ : BufTy).Contents (Elt F) → (⟨S32768x1, .f32⟩ : BufTy).Contents (Elt F)),
    unary main_call3_v8 main_call3_v9 (Host.log : (⟨S32768x1, .f32⟩ : BufTy).Contents (Elt F) → (⟨S32768x1, .f32⟩ : BufTy).Contents (Elt F)),
    unary main_call3_v9 main_call3_v10 ((broadcastInDim S32768x1000 ![0, 1] bcast_S32768x1_S32768x1000_0_1) : (⟨S32768x1, .f32⟩ : BufTy).Contents (Elt F) → (⟨S32768x1000, .f32⟩ : BufTy).Contents (Elt F)),
    binary main_call3_v5 main_call3_v10 main_v47 (subf : (⟨S32768x1000, .f32⟩ : BufTy).Contents (Elt F) → (⟨S32768x1000, .f32⟩ : BufTy).Contents (Elt F) → (⟨S32768x1000, .f32⟩ : BufTy).Contents (Elt F)) ]

/-- The row maximum's operation over typed references is the plain operation at the same buffers, for ANY reduction
    function: along a proof of `T = T` the transport of contents is the identity. -/
theorem binary_v46_call3
    (f : (⟨S32768x1000, .f32⟩ : BufTy).Contents (Elt F) → (⟨S_, .f32⟩ : BufTy).Contents (Elt F) → (⟨S32768, .f32⟩ : BufTy).Contents (Elt F)) :
    (TRef.binary (TRef.of (T := ⟨S32768x1000, .f32⟩) main_v46) (TRef.of (T := ⟨S_, .f32⟩) main_call3_cst) (TRef.of (T := ⟨S32768, .f32⟩) main_call3_v0) f : HloOp τ sig (Elt F))
      = binary main_v46 main_call3_cst main_call3_v0 f := rfl

set_option maxRecDepth 8192 in
/-- @main's operations are the three stretches set end to end: operation by operation, each typed-reference operation
    being the plain operation at the same buffers. -/
theorem ops_split : (ValueP.ops : List (HloOp τ sig (Elt F))) = opsA ++ (opsB ++ opsC) :=
  List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨(binary_v46_call3 _), List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, rfl⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

/-! ## The first stretch: up to the hidden array

From ANY buffer contents `V`, the first fourteen operations leave at `main_v8` the hidden array's stage function of the
contents of the first three arguments, and do not write the other four arguments. -/

theorem after_opsA_v8 (V : Valuation τ sig (Elt F)) :
    after opsA V (Proc.devRef .tc main_v8) = ReadP.val_main_v8 (V (Proc.devRef .tc main_arg0)) (V (Proc.devRef .tc main_arg1)) (V (Proc.devRef .tc main_arg2)) := by
  after_results_simp
  simp only [ReadP.val_main_cst, ReadP.val_main_v0, ReadP.val_main_v1, ReadP.val_main_cst_0, ReadP.val_main_cst_1, ReadP.val_main_call0_v0, ReadP.val_main_call0_v1, ReadP.val_main_v2, ReadP.val_main_v3, ReadP.val_main_v4, ReadP.val_main_v5, ReadP.val_main_v6, ReadP.val_main_v7, ReadP.val_main_v8]

theorem after_opsA_arg3 (V : Valuation τ sig (Elt F)) : after opsA V (Proc.devRef .tc main_arg3) = V (Proc.devRef .tc main_arg3) := by
  after_results_simp
theorem after_opsA_arg4 (V : Valuation τ sig (Elt F)) : after opsA V (Proc.devRef .tc main_arg4) = V (Proc.devRef .tc main_arg4) := by
  after_results_simp
theorem after_opsA_arg5 (V : Valuation τ sig (Elt F)) : after opsA V (Proc.devRef .tc main_arg5) = V (Proc.devRef .tc main_arg5) := by
  after_results_simp
theorem after_opsA_arg6 (V : Valuation τ sig (Elt F)) : after opsA V (Proc.devRef .tc main_arg6) = V (Proc.devRef .tc main_arg6) := by
  after_results_simp

/-! ## The second stretch: from the hidden array to the logits

From any contents that hold the hidden array's stage at `main_v8`, the next fifty-three operations leave the logits'
stage at `main_v46`: the hidden array enters the comparison as ONE value, however many operations read it. -/

set_option maxRecDepth 8192 in
set_option maxHeartbeats 4000000 in
theorem after_opsB_v46 (V : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F)) (x3 : (⟨S100, .f32⟩ : BufTy).Contents (Elt F)) (x4 : (⟨S100, .f32⟩ : BufTy).Contents (Elt F)) (x5 : (⟨S1000x100, .f32⟩ : BufTy).Contents (Elt F)) (x6 : (⟨S1000, .f32⟩ : BufTy).Contents (Elt F))
    (h8 : V (Proc.devRef .tc main_v8) = ReadP.val_main_v8 x0 x1 x2)
    (h3 : V (Proc.devRef .tc main_arg3) = x3) (h4 : V (Proc.devRef .tc main_arg4) = x4) (h5 : V (Proc.devRef .tc main_arg5) = x5) (h6 : V (Proc.devRef .tc main_arg6) = x6) :
    after opsB V (Proc.devRef .tc main_v46) = ReadP.val_main_v46 x0 x1 x2 x3 x4 x5 x6 := by
  subst h3 h4 h5 h6
  after_results_simp
  simp only [h8, ReadP.val_main_cst_2, ReadP.val_main_v9, ReadP.val_main_cst_3, ReadP.val_main_v10, ReadP.val_main_v11, ReadP.val_main_v12, ReadP.val_main_v13, ReadP.val_main_v14, ReadP.val_main_v15, ReadP.val_main_cst_4, ReadP.val_main_v16, ReadP.val_main_cst_5, ReadP.val_main_v17, ReadP.val_main_v18, ReadP.val_main_v19, ReadP.val_main_v20, ReadP.val_main_v21, ReadP.val_main_cst_6, ReadP.val_main_v22, ReadP.val_main_v23, ReadP.val_main_v24, ReadP.val_main_v25, ReadP.val_main_v26, ReadP.val_main_v27, ReadP.val_main_v28, ReadP.val_main_v29, ReadP.val_main_v30, ReadP.val_main_v31, ReadP.val_main_v32, ReadP.val_main_v33, ReadP.val_main_cst_7, ReadP.val_main_v34, ReadP.val_main_v35, ReadP.val_main_cst_8, ReadP.val_main_cst_9, ReadP.val_main_call1_v0, ReadP.val_main_call1_v1, ReadP.val_main_v36, ReadP.val_main_v37, ReadP.val_main_cst_10, ReadP.val_main_v38, ReadP.val_main_v39, ReadP.val_main_cst_11, ReadP.val_main_cst_12, ReadP.val_main_call2_v0, ReadP.val_main_call2_v1, ReadP.val_main_v40, ReadP.val_main_v41, ReadP.val_main_v42, ReadP.val_main_v43, ReadP.val_main_v44, ReadP.val_main_v45, ReadP.val_main_v46]

/-! ## The third stretch: the log-softmax of the logits

From any contents that hold the logits' stage at `main_v46`, the last fifteen operations leave the result's stage at
`main_v47`. -/

set_option maxRecDepth 8192 in
set_option maxHeartbeats 4000000 in
theorem after_opsC_v47 (V : Valuation τ sig (Elt F)) (x0 : (⟨S32768x4096, .f32⟩ : BufTy).Contents (Elt F)) (x1 : (⟨S100x4096, .f32⟩ : BufTy).Contents (Elt F)) (x2 : (⟨S100, .f32⟩ : BufTy).Contents (Elt F)) (x3 : (⟨S100, .f32⟩ : BufTy).Contents (Elt F)) (x4 : (⟨S100, .f32⟩ : BufTy).Contents (Elt F)) (x5 : (⟨S1000x100, .f32⟩ : BufTy).Contents (Elt F)) (x6 : (⟨S1000, .f32⟩ : BufTy).Contents (Elt F))
    (h46 : V (Proc.devRef .tc main_v46) = ReadP.val_main_v46 x0 x1 x2 x3 x4 x5 x6) :
    after opsC V (Proc.devRef .tc main_v47) = ReadP.val_main_v47 x0 x1 x2 x3 x4 x5 x6 := by
  after_results_simp
  simp only [h46, ReadP.val_main_call3_cst, ReadP.val_main_call3_v0, ReadP.val_main_call3_cst_0, ReadP.val_main_call3_v1, ReadP.val_main_call3_v2, ReadP.val_main_call3_v3, ReadP.val_main_call3_v4, ReadP.val_main_call3_v5, ReadP.val_main_call3_v6, ReadP.val_main_call3_cst_1, ReadP.val_main_call3_v7, ReadP.val_main_call3_v8, ReadP.val_main_call3_v9, ReadP.val_main_call3_v10, ReadP.val_main_v47]

/-! ## The whole line -/

/-- From any contents `W`, @main's eighty-two operations leave at `main_v47` the result's stage function of the contents
    of the seven arguments: the three stretches one after the other, each from the contents the one before leaves. -/
theorem after_ops_v47 (W : Valuation τ sig (Elt F)) :
    after ValueP.ops W (Proc.devRef .tc main_v47)
      = ReadP.val_main_v47 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_split, after_append, after_append]
  exact after_opsC_v47 _ _ _ _ _ _ _ _
    (after_opsB_v46 _ _ _ _ _ _ _ _ (after_opsA_v8 W) (after_opsA_arg3 W) (after_opsA_arg4 W) (after_opsA_arg5 W) (after_opsA_arg6 W))

set_option maxRecDepth 8192 in
set_option maxHeartbeats 32800000 in
/-- On every device, for any float values, from any memory with zero counters: every weakly fair execution of
    @main terminates with the result at its stage function of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = Cert.ReferenceIdeal.ReadP.val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v47).trans (after_ops_v47 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq ValueP.scopedRefs_eq ValueP.scopedSems_eq defs main (fun _ => ValueP.ops) ValueP.main_eq (fun _ => ValueP.ops_sub) m ρ)

end Cert.ReferenceIdeal.RefValue

end
-- ==== Proof.RefBridge.lean ====
/-
  The reference program's result, read one operation at a time, is the plain network of the specification.

  Each stage of the program is read at explicit coordinates from its operands; the layout operations (broadcasts,
  transposes) only re-index, and composing their index maps at coordinates (b, j) gives the coordinates the
  specification names. Layer by layer: the hidden pre-activations, the batch statistics of each hidden column (mean,
  biased variance, reciprocal deviation), the normalised entry, the logits, and the row's log-softmax.
-/
import proofs.«175901_j47201690583460_2_alg».proof.Proof.RefStagesP
import proofs.«175901_j47201690583460_2_alg».proof.Proof.Layers
import proofs.«175901_j47201690583460_2_alg».proof.Proof.LibMaxReduce
import Idealize.ShloMosaic.Lib.ValueIdx
import Idealize.ShloMosaic.PureOps.Ideal.Laws

noncomputable section

namespace Cert.ReferenceIdeal.Bridge

open Cert.ReferenceIdeal Cert.ReferenceIdeal.Gen Cert.ReferenceIdeal.ReadP Cert.BinNet Cert.LibMaxReduce Idealize.ShloMosaic Idealize.ShloMosaic.ValueIdx

/-- Two index maps into a rank-2 (rank-1) array agree when their coordinates do. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

variable (x0 : (⟨S32768x4096, .f32⟩ : BufTy).Contents (Elt Ideal)) (x1 : (⟨S100x4096, .f32⟩ : BufTy).Contents (Elt Ideal))
  (x2 x3 x4 : (⟨S100, .f32⟩ : BufTy).Contents (Elt Ideal)) (x5 : (⟨S1000x100, .f32⟩ : BufTy).Contents (Elt Ideal))
  (x6 : (⟨S1000, .f32⟩ : BufTy).Contents (Elt Ideal))

/-! ### The hidden pre-activations -/

/-- The binarized first-layer weight at (j, k). -/
theorem binW1_eq (j : Fin 100) (k : Fin 4096) : val_main_v2 (F := Ideal) x1 (ix2 j k) = sgn (x1 (ix2 j k)) := by
  rw [val_main_v2_apply, val_main_v1_apply, val_main_v0_apply, val_main_cst_apply, val_main_call0_v0_apply,
    val_main_cst_0_apply, val_main_call0_v1_apply, val_main_cst_1_apply]
  rfl

/-- The hidden pre-activation of row b and unit j: Σ_k x (b, k) · sgn W1 (j, k) + b1 (j). -/
theorem hidden_eq (b : Fin 32768) (j : Fin 100) :
    val_main_v8 (F := Ideal) x0 x1 x2 (ix2 b j) = hidden x0 x1 x2 b j := by
  rw [val_main_v8_apply, val_main_v5_apply, val_main_v7_apply, val_main_v6_apply]
  unfold Cert.BinNet.hidden
  rw [Ideal.addf_def]
  congr 1
  · refine Finset.sum_congr rfl fun k _ => ?_
    rw [val_main_v4_apply, val_main_v3_apply]
    have e1 : lidx_main_v5 (ix2 b j) k = ix2 b k := by idx2
    have e2 : idx_main_v4 (ridx_main_v5 (ix2 b j) k) = ix2 j k := by idx2
    rw [e1, e2, binW1_eq]
  · exact congrArg x2 (by idx1)

/-! ### The batch statistics of a hidden column -/

/-- The batch mean of hidden column j. -/
theorem mean_eq (j : Fin 100) :
    val_main_v11 (F := Ideal) x0 x1 x2 (ix1 j) = mean (fun b => hidden x0 x1 x2 b j) := by
  rw [val_main_v11_apply, val_main_v9_apply, val_main_v10_apply, val_main_cst_3_apply, val_main_cst_2_apply]
  have hk : ∀ k : Fin 32768, val_main_v8 (F := Ideal) x0 x1 x2 (idx_main_v9 (ix1 j) k) = hidden x0 x1 x2 k j := fun k => by
    have e : idx_main_v9 (ix1 j) k = ix2 k j := by idx2
    rw [e, hidden_eq]
  simp only [hk]
  rfl

/-- The mean, broadcast back over the batch (the copy the variance subtracts). -/
theorem meanBcast_eq (b : Fin 32768) (j : Fin 100) :
    val_main_v13 (F := Ideal) x0 x1 x2 (ix2 b j) = mean (fun b => hidden x0 x1 x2 b j) := by
  rw [val_main_v13_apply, val_main_v12_apply]
  have e : idx_main_v12 (idx_main_v13 (ix2 b j)) = ix1 j := by idx1
  rw [e, mean_eq]

/-- The biased batch variance of hidden column j. -/
theorem variance_eq (j : Fin 100) :
    val_main_v18 (F := Ideal) x0 x1 x2 (ix1 j) = variance (fun b => hidden x0 x1 x2 b j) := by
  rw [val_main_v18_apply, val_main_v16_apply, val_main_v17_apply, val_main_cst_5_apply, val_main_cst_4_apply]
  have hk : ∀ k : Fin 32768, val_main_v15 (F := Ideal) x0 x1 x2 (idx_main_v16 (ix1 j) k)
      = (hidden x0 x1 x2 k j - mean (fun b => hidden x0 x1 x2 b j))
        * (hidden x0 x1 x2 k j - mean (fun b => hidden x0 x1 x2 b j)) := fun k => by
    have e : idx_main_v16 (ix1 j) k = ix2 k j := by idx2
    rw [e, val_main_v15_apply, val_main_v14_apply, hidden_eq, meanBcast_eq]
    rfl
  simp only [hk]
  rfl

/-- The reciprocal deviation of hidden column j. -/
theorem rstd_eq (j : Fin 100) :
    val_main_v24 (F := Ideal) x0 x1 x2 (ix1 j) = rstd (fun b => hidden x0 x1 x2 b j) := by
  rw [val_main_v24_apply, val_main_v23_apply, val_main_v22_apply, val_main_cst_6_apply, variance_eq]
  rfl

/-! ### The normalised entry -/

theorem plainNorm_eq (b : Fin 32768) (j : Fin 100) :
    val_main_v33 (F := Ideal) x0 x1 x2 x3 x4 (ix2 b j)
      = plainNorm (hidden x0 x1 x2) (fun j => x3 (ix1 j)) (fun j => x4 (ix1 j)) b j := by
  rw [val_main_v33_apply, val_main_v30_apply, val_main_v27_apply, val_main_v21_apply, val_main_v32_apply,
    val_main_v31_apply, val_main_v29_apply, val_main_v28_apply, val_main_v26_apply, val_main_v25_apply,
    val_main_v20_apply, val_main_v19_apply]
  have e1 : idx_main_v19 (idx_main_v20 (ix2 b j)) = ix1 j := by idx1
  have e2 : idx_main_v25 (idx_main_v26 (ix2 b j)) = ix1 j := by idx1
  have e3 : idx_main_v28 (idx_main_v29 (ix2 b j)) = ix1 j := by idx1
  have e4 : idx_main_v31 (idx_main_v32 (ix2 b j)) = ix1 j := by idx1
  rw [e1, e2, e3, e4, hidden_eq, mean_eq, rstd_eq]
  rfl

/-! ### The logits -/

/-- The binarized activation of row b and unit j. -/
theorem act_eq (b : Fin 32768) (j : Fin 100) :
    val_main_v37 (F := Ideal) x0 x1 x2 x3 x4 (ix2 b j)
      = sgn (plainNorm (hidden x0 x1 x2) (fun j => x3 (ix1 j)) (fun j => x4 (ix1 j)) b j) := by
  rw [val_main_v37_apply, val_main_v36_apply, val_main_v35_apply, val_main_v34_apply, val_main_cst_7_apply,
    val_main_call1_v0_apply, val_main_cst_8_apply, val_main_call1_v1_apply, val_main_cst_9_apply, plainNorm_eq]
  rfl

/-- The binarized second-layer weight of class n and unit j. -/
theorem binW2_eq (n : Fin 1000) (j : Fin 100) : val_main_v41 (F := Ideal) x5 (ix2 n j) = outWeights x5 n j := by
  rw [val_main_v41_apply, val_main_v40_apply, val_main_v39_apply, val_main_v38_apply, val_main_cst_10_apply,
    val_main_call2_v0_apply, val_main_cst_11_apply, val_main_call2_v1_apply, val_main_cst_12_apply]
  rfl

theorem logits_eq (b : Fin 32768) (n : Fin 1000) :
    val_main_v46 (F := Ideal) x0 x1 x2 x3 x4 x5 x6 (ix2 b n)
      = logits (fun j => plainNorm (hidden x0 x1 x2) (fun j => x3 (ix1 j)) (fun j => x4 (ix1 j)) b j) (outWeights x5)
          (fun n => x6 (ix1 n)) n := by
  rw [val_main_v46_apply, val_main_v43_apply, val_main_v45_apply, val_main_v44_apply]
  unfold Cert.BinNet.logits
  rw [Ideal.addf_def]
  congr 1
  · refine Finset.sum_congr rfl fun k _ => ?_
    rw [val_main_v42_apply]
    have e1 : lidx_main_v43 (ix2 b n) k = ix2 b k := by idx2
    have e2 : idx_main_v42 (ridx_main_v43 (ix2 b n) k) = ix2 n k := by idx2
    rw [e1, e2, act_eq, binW2_eq]
  · exact congrArg x6 (by idx1)

/-! ### The log-softmax of a row -/

/-- The row's maximum, joined once more with −∞. -/
theorem rowMax_eq (b : Fin 32768) :
    val_main_call3_v2 (F := Ideal) x0 x1 x2 x3 x4 x5 x6 (ix1 b)
      = max negInfW (foldMax negInfW (fun n' => val_main_v46 (F := Ideal) x0 x1 x2 x3 x4 x5 x6 (ix2 b n'))) := by
  have h0 : val_main_call3_v0 (F := Ideal) x0 x1 x2 x3 x4 x5 x6 (ix1 b)
      = foldMax (val_main_call3_cst (F := Ideal) (Shape.Idx.first h_S_))
          (fun k : Fin 1000 => val_main_v46 (F := Ideal) x0 x1 x2 x3 x4 x5 x6 (ix2 b k)) :=
    hostReduce_maximumf_lastAxis_apply (val_main_v46 (F := Ideal) x0 x1 x2 x3 x4 x5 x6) (val_main_call3_cst (F := Ideal))
      reducesTo_S32768x1000_S32768_d1 (by decide) h_S_ b
  rw [val_main_call3_v2_apply, val_main_call3_v1_apply, val_main_call3_cst_0_apply, h0, val_main_call3_cst_apply]
  rfl

/-- A logit less the row's maximum. -/
theorem shifted_eq (b : Fin 32768) (n : Fin 1000) :
    val_main_call3_v5 (F := Ideal) x0 x1 x2 x3 x4 x5 x6 (ix2 b n)
      = val_main_v46 (F := Ideal) x0 x1 x2 x3 x4 x5 x6 (ix2 b n)
        - max negInfW (foldMax negInfW (fun n' => val_main_v46 (F := Ideal) x0 x1 x2 x3 x4 x5 x6 (ix2 b n'))) := by
  rw [val_main_call3_v5_apply, val_main_call3_v4_apply, val_main_call3_v3_apply]
  have e : idx_main_call3_v3 (idx_main_call3_v4 (ix2 b n)) = ix1 b := by idx1
  rw [e, rowMax_eq]
  rfl

theorem logSoftmax_eq (b : Fin 32768) (n : Fin 1000) :
    val_main_v47 (F := Ideal) x0 x1 x2 x3 x4 x5 x6 (ix2 b n)
      = logSoftmaxJoined (fun n' => val_main_v46 (F := Ideal) x0 x1 x2 x3 x4 x5 x6 (ix2 b n')) n := by
  rw [val_main_v47_apply, val_main_call3_v10_apply, val_main_call3_v9_apply, val_main_call3_v8_apply]
  have e : idx_main_call3_v8 (idx_main_call3_v10 (ix2 b n)) = ix1 b := by idx1
  rw [e, val_main_call3_v7_apply, val_main_call3_cst_1_apply]
  have hk : ∀ k : Fin 1000, val_main_call3_v6 (F := Ideal) x0 x1 x2 x3 x4 x5 x6 (idx_main_call3_v7 (ix1 b) k)
      = Ideal.exp (val_main_v46 (F := Ideal) x0 x1 x2 x3 x4 x5 x6 (ix2 b k)
        - max negInfW (foldMax negInfW (fun n' => val_main_v46 (F := Ideal) x0 x1 x2 x3 x4 x5 x6 (ix2 b n')))) := fun k => by
    have e' : idx_main_call3_v7 (ix1 b) k = ix2 b k := by idx2
    rw [e', val_main_call3_v6_apply, shifted_eq]
    rfl
  simp only [hk]
  rw [shifted_eq]
  rfl

/-! ### The result -/

theorem reference_eq_plainResult
    (x0 : (⟨Cert.ReferenceIdeal.S32768x4096, .f32⟩ : BufTy).Contents (Elt Ideal)) (x1 : (⟨Cert.ReferenceIdeal.S100x4096, .f32⟩ : BufTy).Contents (Elt Ideal))
    (x2 x3 x4 : (⟨Cert.ReferenceIdeal.S100, .f32⟩ : BufTy).Contents (Elt Ideal)) (x5 : (⟨Cert.ReferenceIdeal.S1000x100, .f32⟩ : BufTy).Contents (Elt Ideal))
    (x6 : (⟨Cert.ReferenceIdeal.S1000, .f32⟩ : BufTy).Contents (Elt Ideal)) :
    Cert.ReferenceIdeal.ReadP.val_main_v47 (F := Ideal) x0 x1 x2 x3 x4 x5 x6 = Cert.BinNet.plainResult x0 x1 x2 x3 x4 x5 x6 := by
  funext i
  obtain ⟨b, n, rfl⟩ : ∃ (b : Fin 32768) (n : Fin 1000), i = ix2 b n := ⟨i 0, i 1, eq_ix2 i⟩
  rw [logSoftmax_eq]
  simp only [logits_eq]
  rfl

end Cert.ReferenceIdeal.Bridge

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.Algebra.lean ====
/-
  The padded, folded program and the plain program compute the same result on real inputs.

  On the first 100 hidden units the padded program's columns are the plain program's, and on a real column the folded
  normalisation h·(γ·r) + (β − (μ·γ)·r) is the plain one ((h − μ)·r)·γ + β (both are one affine function of h; this is
  the only place where the inputs must be real, the extended reals not being a ring). On the 28 padded units the scale
  and the shift are 0, so the folded normalisation is 0 there whatever the column holds, and the padded weight is 0
  before it is binarized: each padded unit adds sgn 0 · sgn 0 to every logit of every row. So the padded program's
  logits are the plain ones plus one real constant, which the log-softmax does not see: the running maximum moves by
  the constant and every difference o − m stays. Last, joining the maximum once more with −∞ and starting the sum of
  exponentials from 0 change nothing.
-/
import proofs.«175901_j47201690583460_2_alg».proof.Proof.Layers
import proofs.«175901_j47201690583460_2_alg».proof.Proof.LibRealEntries
import proofs.«175901_j47201690583460_2_alg».proof.Proof.LibERealScale

noncomputable section

namespace Cert.BinNet

open Idealize.ShloMosaic Idealize.ShloMosaic.ValueIdx Cert.LibRealEntries Cert.LibMaxReduce Cert.LibERealScale

/-! ### The words

  The six literals both programs print, as extended reals: 0, 1, −1, the batch size 32768, a positive real ε, and −∞. -/

theorem zeroW_eq : zeroW = 0 := Ideal.ofBits_zero_f32

theorem oneW_eq : oneW = 1 := ofBits_one_f32

theorem negOneW_eq : negOneW = -1 := by
  unfold negOneW
  simp [Ideal.ofBits, Ideal.ieee]
  rw [← EReal.coe_mul, ← EReal.coe_one]
  exact congrArg _ (by norm_num)

theorem countW_eq : countW = ((32768 : ℝ) : EReal) := by
  unfold countW
  simp [Ideal.ofBits, Ideal.ieee]
  rw [← EReal.coe_mul]
  exact congrArg _ (by norm_num)

theorem negInfW_eq : negInfW = ⊥ := by
  unfold negInfW
  simp [Ideal.ofBits, Ideal.ieee]

/-- The variance offset is a positive real (13743895 · 2⁻³⁷). -/
theorem epsW_pos_real : ∃ e : ℝ, 0 < e ∧ epsW = (e : EReal) := by
  unfold epsW
  simp [Ideal.ofBits, Ideal.ieee]
  exact ⟨13743895 * (2 ^ 37)⁻¹, by positivity, (EReal.coe_mul _ _).symm⟩

/-! ### The binarizer -/

/-- The binarizer is +1 at z ≥ 0 and −1 below. -/
theorem sgn_eq (z : EReal) : sgn z = if 0 ≤ z then 1 else -1 := by
  unfold sgn Scalar.select Ideal.cmp
  rw [zeroW_eq, oneW_eq, negOneW_eq]
  by_cases h : (0 : EReal) ≤ z <;> simp [h]

/-- The binarizer's value is always a real: it is one of +1 and −1. -/
theorem sgn_isReal (z : EReal) : IsReal (sgn z) := by
  rw [sgn_eq]
  split
  · exact ⟨1, EReal.coe_one.symm⟩
  · exact ⟨-1, by rw [EReal.coe_neg, EReal.coe_one]⟩

theorem sgn_zero : sgn 0 = 1 := by rw [sgn_eq, if_pos le_rfl]

/-! ### The statistics of a real column -/

section Stats
variable {B : ℕ}

/-- The batch mean of a real column is real. -/
theorem mean_isReal (c : Fin B → EReal) (hc : ∀ b, IsReal (c b)) : IsReal (mean c) := by
  unfold mean
  rw [zeroW_eq, zero_add, countW_eq, Ideal.div_coe (by norm_num)]
  exact IsReal.mul (IsReal.sum _ _ fun b _ => hc b) (IsReal.coe _)

/-- A nonnegative real among the extended reals. -/
def IsNonnegReal (x : EReal) : Prop := ∃ r : ℝ, 0 ≤ r ∧ x = (r : EReal)

theorem IsNonnegReal.add {x y : EReal} (hx : IsNonnegReal x) (hy : IsNonnegReal y) : IsNonnegReal (x + y) := by
  obtain ⟨a, ha, rfl⟩ := hx; obtain ⟨b, hb, rfl⟩ := hy
  exact ⟨a + b, add_nonneg ha hb, (EReal.coe_add a b).symm⟩

theorem IsNonnegReal.sum {ι : Type*} (s : Finset ι) (f : ι → EReal) (h : ∀ i ∈ s, IsNonnegReal (f i)) :
    IsNonnegReal (∑ i ∈ s, f i) :=
  Finset.sum_induction f IsNonnegReal (fun _ _ => IsNonnegReal.add) ⟨0, le_rfl, rfl⟩ h

/-- The square of a real is a nonnegative real. -/
theorem IsReal.mul_self_nonneg {x : EReal} (hx : IsReal x) : IsNonnegReal (x * x) := by
  obtain ⟨a, rfl⟩ := hx
  exact ⟨a * a, _root_.mul_self_nonneg a, (EReal.coe_mul a a).symm⟩

/-- The biased batch variance of a real column is a nonnegative real: a sum of squares of reals over a positive real. -/
theorem variance_isNonnegReal (c : Fin B → EReal) (hc : ∀ b, IsReal (c b)) : IsNonnegReal (variance c) := by
  unfold variance
  rw [zeroW_eq, zero_add, countW_eq, Ideal.div_coe (by norm_num)]
  obtain ⟨s, hs, hs'⟩ := IsNonnegReal.sum Finset.univ (fun b => (c b - mean c) * (c b - mean c))
    fun b _ => IsReal.mul_self_nonneg (IsReal.sub (hc b) (mean_isReal c hc))
  rw [hs']
  exact ⟨s * (1 / 32768), mul_nonneg hs (by norm_num), (EReal.coe_mul _ _).symm⟩

/-- The reciprocal deviation of a real column is real: σ² + ε is a positive real, where the reciprocal square root is
    the real one. -/
theorem rstd_isReal (c : Fin B → EReal) (hc : ∀ b, IsReal (c b)) : IsReal (rstd c) := by
  unfold rstd
  obtain ⟨v, hv, hv'⟩ := variance_isNonnegReal c hc
  obtain ⟨e, he, he'⟩ := epsW_pos_real
  have hpos : 0 < v + e := add_pos_of_nonneg_of_pos hv he
  rw [hv', he', ← EReal.coe_add, Ideal.rsqrt_coe, if_neg (not_lt.mpr hpos.le), if_neg hpos.ne']
  exact IsReal.coe _

end Stats

/-! ### The two normalisations -/

/-- The folded and the plain normalisation of one real entry agree: both are the affine function
    r ↦ r·γ·s + β − μ·γ·s. -/
theorem folded_eq_plain_assoc {r γ β μ s : EReal} (hr : IsReal r) (hγ : IsReal γ) (hβ : IsReal β) (hμ : IsReal μ)
    (hs : IsReal s) : r * (γ * s) + (β - (μ * γ) * s) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

section Norm
variable {B H H' : ℕ}

/-- On a real column with a real scale and shift the folded normalisation is the plain one. -/
theorem foldedNorm_eq_plainNorm (h : Fin B → Fin H → EReal) (γ β : Fin H → EReal) (b : Fin B) (j : Fin H)
    (hh : ∀ b', IsReal (h b' j)) (hγ : IsReal (γ j)) (hβ : IsReal (β j)) :
    foldedNorm h γ β b j = plainNorm h γ β b j := by
  unfold foldedNorm plainNorm
  exact folded_eq_plain_assoc (hh b) hγ hβ (mean_isReal _ hh) (rstd_isReal _ hh)

/-- Where the scale and the shift are 0 the folded normalisation is 0, whatever the column holds: 0 annihilates every
    extended real. -/
theorem foldedNorm_of_zero (h : Fin B → Fin H → EReal) (γ β : Fin H → EReal) (b : Fin B) (j : Fin H)
    (hγ : γ j = 0) (hβ : β j = 0) : foldedNorm h γ β b j = 0 := by
  unfold foldedNorm
  rw [hγ, hβ, zero_mul, mul_zero, mul_zero, zero_mul, sub_zero, add_zero]

/-- The folded normalisation of an entry reads only that entry's column, scale and shift. -/
theorem foldedNorm_congr (h : Fin B → Fin H → EReal) (h' : Fin B → Fin H' → EReal) (γ β : Fin H → EReal)
    (γ' β' : Fin H' → EReal) (b : Fin B) (j : Fin H) (j' : Fin H') (hh : ∀ b', h b' j = h' b' j')
    (hγ : γ j = γ' j') (hβ : β j = β' j') : foldedNorm h γ β b j = foldedNorm h' γ' β' b j' := by
  unfold foldedNorm
  have hcol : (fun b' => h b' j) = (fun b' => h' b' j') := funext hh
  rw [hcol, hh b, hγ, hβ]

end Norm

/-! ### The padded width: 128 = 100 + 28 -/

/-- The first 100 of the 128 units, and the 28 padded ones after them. -/
def lo (j : Fin 100) : Fin 128 := ⟨j.val, by omega⟩
def hi (j : Fin 28) : Fin 128 := ⟨100 + j.val, by omega⟩

/-- A sum over the 128 units is the sum over the first 100 plus the sum over the 28 padded ones. -/
theorem sum_lo_hi (f : Fin 128 → EReal) : ∑ j, f j = ∑ j : Fin 100, f (lo j) + ∑ j : Fin 28, f (hi j) :=
  Fin.sum_univ_add (a := 100) (b := 28) f

theorem padded_lo (v : Fin 100 → EReal) (j : Fin 100) : padded v (lo j) = v j := by
  unfold padded
  rw [dif_pos (show (lo j).val < 100 from j.isLt)]
  rfl

theorem padded_hi (v : Fin 100 → EReal) (j : Fin 28) : padded v (hi j) = 0 := by
  unfold padded
  rw [dif_neg (show ¬ (hi j).val < 100 from by show ¬ (100 + j.val < 100); omega)]

/-- On the first 100 units the padded hidden pre-activations are the plain ones. -/
theorem hiddenPadded_lo (x : Mat 32768 4096) (W1 : Mat 100 4096) (b1 : Vct 100) (b : Fin 32768) (j : Fin 100) :
    hiddenPadded x W1 b1 b (lo j) = hidden x W1 b1 b j := by
  unfold hiddenPadded hidden
  simp only [padded_lo]

/-- The hidden pre-activations of real inputs are real. -/
theorem hidden_isReal (x : Mat 32768 4096) (W1 : Mat 100 4096) (b1 : Vct 100) (hx : ∀ i, IsReal (x i))
    (hb1 : ∀ i, IsReal (b1 i)) (b : Fin 32768) (j : Fin 100) : IsReal (hidden x W1 b1 b j) := by
  unfold hidden
  exact IsReal.add (IsReal.sum _ _ fun k _ => IsReal.mul (hx _) (sgn_isReal _)) (hb1 _)

theorem outWeightsPadded_lo (W2 : Mat 1000 100) (n : Fin 1000) (j : Fin 100) :
    outWeightsPadded W2 n (lo j) = outWeights W2 n j := by
  unfold outWeightsPadded outWeights
  rw [padded_lo]

theorem outWeightsPadded_hi (W2 : Mat 1000 100) (n : Fin 1000) (j : Fin 28) : outWeightsPadded W2 n (hi j) = sgn 0 := by
  unfold outWeightsPadded
  rw [padded_hi]

/-! ### The log-softmax under a constant shift -/

/-- Adding one constant to every entry adds it to the running maximum from −∞: addition is monotone and −∞ absorbs. -/
theorem fold_max_add_const {ι : Type*} (s : Finset ι) (o : ι → EReal) (C : EReal) :
    s.fold max ⊥ (fun n => o n + C) = s.fold max ⊥ o + C := by
  classical
  induction s using Finset.induction_on with
  | empty => rw [Finset.fold_empty, Finset.fold_empty, EReal.bot_add]
  | insert a s ha ih => rw [Finset.fold_insert ha, Finset.fold_insert ha, ih, max_add_add_right]

/-- A real constant added to both sides of a difference cancels, whatever the two sides are. -/
theorem add_sub_add_const (a m : EReal) {C : EReal} (hC : IsReal C) : (a + C) - (m + C) = a - m := by
  obtain ⟨c, rfl⟩ := hC
  have h1 : -(m + (c : EReal)) = -m + -(c : EReal) := by
    rw [EReal.neg_add (Or.inr (EReal.coe_ne_top c)) (Or.inr (EReal.coe_ne_bot c)), sub_eq_add_neg]
  have h2 : (c : EReal) + -(c : EReal) = 0 := by
    rw [← EReal.coe_neg, ← EReal.coe_add, add_neg_cancel, EReal.coe_zero]
  calc a + ↑c - (m + ↑c) = (a + ↑c) + -(m + ↑c) := sub_eq_add_neg _ _
    _ = (a + ↑c) + (-m + -↑c) := by rw [h1]
    _ = (a + -m) + (↑c + -↑c) := add_add_add_comm _ _ _ _
    _ = a + -m := by rw [h2, add_zero]
    _ = a - m := (sub_eq_add_neg _ _).symm

section Softmax
variable {N : ℕ}

/-- The log-softmax does not see a real constant added to every logit. -/
theorem logSoftmaxBare_add_const (o : Fin N → EReal) {C : EReal} (hC : IsReal C) (n : Fin N) :
    logSoftmaxBare (fun n' => o n' + C) n = logSoftmaxBare o n := by
  unfold logSoftmaxBare foldMax
  rw [negInfW_eq, fold_max_add_const]
  simp only [add_sub_add_const _ _ hC]

/-- Joining the running maximum once more with −∞ and starting the sum of exponentials from 0 change nothing. -/
theorem logSoftmaxJoined_eq_bare (o : Fin N → EReal) (n : Fin N) : logSoftmaxJoined o n = logSoftmaxBare o n := by
  unfold logSoftmaxJoined logSoftmaxBare
  rw [max_foldMax, zeroW_eq, zero_add]

end Softmax

/-! ### The two results -/

/-- The padded program's logits are the plain program's plus the constant the 28 padded units contribute: there the
    normalised entry is 0 and the weight is 0 before it is binarized, so each contributes sgn 0 · sgn 0. -/
theorem logits_padded (x : Mat 32768 4096) (W1 : Mat 100 4096) (b1 γ β : Vct 100) (W2 : Mat 1000 100) (b2 : Vct 1000)
    (hx : ∀ i, IsReal (x i)) (hb1 : ∀ i, IsReal (b1 i)) (hγ : ∀ i, IsReal (γ i)) (hβ : ∀ i, IsReal (β i))
    (b : Fin 32768) (n : Fin 1000) :
    logits (fun J => foldedNorm (hiddenPadded x W1 b1) (padded fun j => γ (ix1 j)) (padded fun j => β (ix1 j)) b J)
        (outWeightsPadded W2) (fun n => b2 (ix1 n)) n
      = logits (fun j => plainNorm (hidden x W1 b1) (fun j => γ (ix1 j)) (fun j => β (ix1 j)) b j) (outWeights W2)
          (fun n => b2 (ix1 n)) n + ∑ _j : Fin 28, sgn 0 * sgn 0 := by
  unfold logits
  rw [sum_lo_hi]
  have hlo : ∀ j : Fin 100,
      foldedNorm (hiddenPadded x W1 b1) (padded fun j => γ (ix1 j)) (padded fun j => β (ix1 j)) b (lo j)
        = plainNorm (hidden x W1 b1) (fun j => γ (ix1 j)) (fun j => β (ix1 j)) b j := by
    intro j
    rw [foldedNorm_congr (hiddenPadded x W1 b1) (hidden x W1 b1) _ _ (fun j => γ (ix1 j)) (fun j => β (ix1 j)) b (lo j) j
      (fun b' => hiddenPadded_lo x W1 b1 b' j) (padded_lo _ j) (padded_lo _ j)]
    exact foldedNorm_eq_plainNorm _ _ _ b j (fun b' => hidden_isReal x W1 b1 hx hb1 b' j) (hγ _) (hβ _)
  have hhi : ∀ j : Fin 28,
      foldedNorm (hiddenPadded x W1 b1) (padded fun j => γ (ix1 j)) (padded fun j => β (ix1 j)) b (hi j) = 0 :=
    fun j => foldedNorm_of_zero _ _ _ b (hi j) (padded_hi _ j) (padded_hi _ j)
  simp only [hlo, hhi, outWeightsPadded_lo, outWeightsPadded_hi]
  exact add_right_comm _ _ _

/-- Row b, class n of the padded, folded network is that of the plain one. -/
theorem foldedNet_padded_eq_plainNet (x : Mat 32768 4096) (W1 : Mat 100 4096) (b1 γ β : Vct 100) (W2 : Mat 1000 100)
    (b2 : Vct 1000) (hx : ∀ i, IsReal (x i)) (hb1 : ∀ i, IsReal (b1 i)) (hγ : ∀ i, IsReal (γ i)) (hβ : ∀ i, IsReal (β i))
    (b : Fin 32768) (n : Fin 1000) :
    foldedNet (hiddenPadded x W1 b1) (padded fun j => γ (ix1 j)) (padded fun j => β (ix1 j)) (outWeightsPadded W2)
        (fun n => b2 (ix1 n)) b n
      = plainNet (hidden x W1 b1) (fun j => γ (ix1 j)) (fun j => β (ix1 j)) (outWeights W2) (fun n => b2 (ix1 n)) b n := by
  have hC : IsReal (∑ _j : Fin 28, sgn 0 * sgn 0) := IsReal.sum _ _ fun _ _ => (sgn_isReal 0).mul (sgn_isReal 0)
  have hlog : logits (fun J => foldedNorm (hiddenPadded x W1 b1) (padded fun j => γ (ix1 j)) (padded fun j => β (ix1 j)) b J)
        (outWeightsPadded W2) (fun n => b2 (ix1 n))
      = fun n => logits (fun j => plainNorm (hidden x W1 b1) (fun j => γ (ix1 j)) (fun j => β (ix1 j)) b j) (outWeights W2)
          (fun n => b2 (ix1 n)) n + ∑ _j : Fin 28, sgn 0 * sgn 0 :=
    funext fun n => logits_padded x W1 b1 γ β W2 b2 hx hb1 hγ hβ b n
  unfold foldedNet plainNet
  rw [hlog]
  exact (logSoftmaxBare_add_const _ hC n).trans (logSoftmaxJoined_eq_bare _ n).symm

theorem paddedResult_eq_plainResult (x : Mat 32768 4096) (W1 : Mat 100 4096) (b1 γ β : Vct 100) (W2 : Mat 1000 100) (b2 : Vct 1000)
    (hx : ∀ i, IsReal (x i)) (hb1 : ∀ i, IsReal (b1 i)) (hγ : ∀ i, IsReal (γ i)) (hβ : ∀ i, IsReal (β i)) :
    paddedResult x W1 b1 γ β W2 b2 = plainResult x W1 b1 γ β W2 b2 :=
  funext fun i => foldedNet_padded_eq_plainNet x W1 b1 γ β W2 b2 hx hb1 hγ hβ (i 0) (i 1)

end Cert.BinNet

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«175901_j47201690583460_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.Finite.lean ====
/-
  The precondition "every float input is finite", read entry by entry.

  The printed precondition is the conjunction, over the seven argument arrays, of "every entry's absolute value is below
  +∞". Where it holds, each conjunct holds, and a conjunct that holds says every entry of its array is a real number.
  The equivalence of the two programs needs this of the input batch, the first bias and the normalisation's scale and
  shift: on those the folded and the plain normalisation are two arrangements of one real computation.
-/
import proofs.«175901_j47201690583460_2_alg».proof.Pre_finite_inputs
import proofs.«175901_j47201690583460_2_alg».proof.Proof.Gen.Pre_finite_inputs
import proofs.«175901_j47201690583460_2_alg».proof.Proof.LibFinitePre
import Idealize.ShloMosaic.Lib.Affine

noncomputable section

namespace Cert.FiniteInputs

open Idealize.ShloMosaic Idealize.ShloMosaic.ValueIdx Cert.LibRealEntries Cert.LibFinitePre Cert.Pre_finite_inputs

/-- Where the printed precondition holds, the batch, the first bias, the scale and the shift have real entries. -/
theorem real_of_pre (x0 : FVec Ideal S32768x4096 .f32) (x1 : FVec Ideal S100x4096 .f32) (x2 x3 x4 : FVec Ideal S100 .f32)
    (x5 : FVec Ideal S1000x100 .f32) (x6 : FVec Ideal S1000 .f32)
    (h : fn (F := Ideal) x0 x1 x2 x3 x4 x5 x6 = fun _ => 1#1) :
    (∀ i, IsReal (x0 i)) ∧ (∀ i, IsReal (x2 i)) ∧ (∀ i, IsReal (x3 i)) ∧ (∀ i, IsReal (x4 i)) := by
  have h0 := congrFun h ix0
  dsimp only [fn, fn_part1] at h0
  obtain ⟨h28, -⟩ := IntOp.andi_eq_one.1 h0
  obtain ⟨h23, -⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, -⟩ := IntOp.andi_eq_one.1 h8
  exact ⟨all_real x0 Facts.bcast_S_S32768x4096 Facts.reducesTo_S32768x4096_S_d0_1 Facts.h_S_ e0,
    all_real x2 Facts.bcast_S_S100 Facts.reducesTo_S100_S_d0 Facts.h_S_ e2,
    all_real x3 Facts.bcast_S_S100 Facts.reducesTo_S100_S_d0 Facts.h_S_ e3,
    all_real x4 Facts.bcast_S_S100 Facts.reducesTo_S100_S_d0 Facts.h_S_ e4⟩

end Cert.FiniteInputs

end
-- ==== Proof.lean ====
/-
  A two-layer network with sign-binarized weights and activations, batch normalisation between the layers and a
  log-softmax at the end: a kernel program of two launches against its plain reference, equal on the extended reals
  wherever every float input is finite.

  The reference works on the 100 hidden units: h = x · sgn(W1)ᵀ + b1, the batch mean μ and biased batch variance of each
  hidden column, hn = ((h − μ) · r) · γ + β with r = (variance + ε)^(-1/2), logits o = sgn(hn) · sgn(W2)ᵀ + b2, and the
  rows' log-softmax. The kernel program pads the hidden width to 128 with zeros, computes h in a first launch, the
  statistics on the host, and in a second launch the FOLDED normalisation h · (γ · r) + (β − (μ · γ) · r), the logits
  and the log-softmax. Two laws join them. On real entries the folded and the plain normalisation agree — this is
  where finiteness of the batch, the first bias, the scale and the shift is used: the extended reals are not a ring.
  And each of the 28 padded units has scale and shift 0, so its normalised entry is 0, its activation sgn 0, its
  second-layer weight sgn 0: it adds the same constant to every logit of a row, and a row's log-softmax does not
  change when a real constant is added to all its logits.
  The kernel side: each launch's blocks tile its output, so the output array is one function of the arrays the launch
  finds; those are read off the fold of the host operations. The reference side: its run read one operation at a time.
-/
import proofs.«175901_j47201690583460_2_alg».proof.Defs
import proofs.«175901_j47201690583460_2_alg».proof.Proof.Gen.Kernel
import proofs.«175901_j47201690583460_2_alg».proof.Proof.Gen.Kernel.Skeleton
import proofs.«175901_j47201690583460_2_alg».proof.Proof.Gen.Kernel.Launch
import proofs.«175901_j47201690583460_2_alg».proof.Proof.Gen.Kernel.Points
import proofs.«175901_j47201690583460_2_alg».proof.Proof.Gen.Kernel.Frame
import proofs.«175901_j47201690583460_2_alg».proof.Proof.Gen.KernelIdeal
import proofs.«175901_j47201690583460_2_alg».proof.Proof.Gen.KernelIdeal.Skeleton
import proofs.«175901_j47201690583460_2_alg».proof.Proof.Gen.KernelIdeal.Launch
import proofs.«175901_j47201690583460_2_alg».proof.Proof.Gen.KernelIdeal.Points
import proofs.«175901_j47201690583460_2_alg».proof.Proof.Gen.KernelIdeal.Frame
import proofs.«175901_j47201690583460_2_alg».proof.Proof.Gen.ReferenceIdeal
import proofs.«175901_j47201690583460_2_alg».proof.Proof.Gen.Pre_finite_inputs
import proofs.«175901_j47201690583460_2_alg».proof.Proof.KernelValue
import proofs.«175901_j47201690583460_2_alg».proof.Proof.RefValue
import proofs.«175901_j47201690583460_2_alg».proof.Proof.RefBridge
import proofs.«175901_j47201690583460_2_alg».proof.Proof.Algebra
import proofs.«175901_j47201690583460_2_alg».proof.Proof.Finite
import Idealize.ShloMosaic.Adequacy
import Idealize.ShloMosaic.Init

noncomputable section

namespace Cert.Proof

open Idealize.ShloMosaic Idealize.SL.Sem

/-- The kernel as printed runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

/-- From memories agreeing on the arguments, both programs end with the padded network of the argument arrays:
    the kernel program by its two launches and the host operations between them, the reference because its plain
    network equals the padded one on finite inputs. -/
theorem algebraic : Cert.algebraic_KernelIdeal_ReferenceIdeal := by
  intro m ρ m' ρ' hpre hagree
  refine ⟨fun c => Cert.BinNet.paddedResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6⟩ := hagree c
  rw [a0, a1, a2, a3, a4, a5, a6, Cert.ReferenceIdeal.Bridge.reference_eq_plainResult]
  obtain ⟨r0, r2, r3, r4⟩ := Cert.FiniteInputs.real_of_pre _ _ _ _ _ _ _ (hpre c)
  exact (Cert.BinNet.paddedResult_eq_plainResult _ _ _ _ _ _ _ r0 r2 r3 r4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
